-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1025x8192 : Shape := ⟨2, ![1025, 8192]⟩
abbrev S1x8192 : Shape := ⟨2, ![1, 8192]⟩
abbrev S_ : Shape := ⟨0, ![]⟩

class Facts : Prop where
  bcast_S_S1025x8192 : S_.BroadcastsInDim S1025x8192 (![] : Fin 0 → Fin S1025x8192.rank)
  reducesTo_S1025x8192_S_d0_1 : S1025x8192.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S1025x8192 .f32) (main_arg1 : FVec F S1x8192 .f32) : IVec S_ 1 :=
  let main_v0 : FVec F S1025x8192 .f32 := Host.absf main_arg0
  let main_cst : FVec F S_ .f32 := constant S_ .f32 0x7F800000#32
  let main_v1 : FVec F S1025x8192 .f32 := broadcastInDim S1025x8192 ![] bcast_S_S1025x8192 main_cst
  let main_v2 : IVec S1025x8192 1 := cmpf .olt main_v0 main_v1
  let main_c : IVec S_ 1 := constantI S_ 1 1#1
  let main_v3 : IVec S_ 1 := (fun x v => Host.reduce IntOp.andi x v reducesTo_S1025x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  main_v8
-- ==== Kernel.lean ====
abbrev S1025x8192 : Shape := ⟨2, ![1025, 8192]⟩
abbrev S1x8192 : Shape := ⟨2, ![1, 8192]⟩
abbrev S9217x8192 : Shape := ⟨2, ![9217, 8192]⟩
abbrev S1025x128 : Shape := ⟨2, ![1025, 128]⟩
abbrev S1x128 : Shape := ⟨2, ![1, 128]⟩
abbrev S9217x128 : Shape := ⟨2, ![9217, 128]⟩
abbrev S1024x128 : Shape := ⟨2, ![1024, 128]⟩
abbrev S128 : Shape := ⟨1, ![128]⟩
abbrev S8192x1 : Shape := ⟨2, ![8192, 1]⟩
abbrev S8192x128 : Shape := ⟨2, ![8192, 128]⟩

abbrev nBuf : Space → Nat
  | .hbm => 3
  | .vmem => 6
  | .smem => 0
  | _ => 0

abbrev bufTy : (tb : Table) → Fin (tcTables nBuf tb) → BufTy
  | .hbm, ⟨0, _⟩ => ⟨S1025x8192, .f32⟩
  | .hbm, ⟨1, _⟩ => ⟨S1x8192, .f32⟩
  | .hbm, ⟨2, _⟩ => ⟨S9217x8192, .f32⟩
  | .local _ .vmem, ⟨0, _⟩ => ⟨S1025x128, .f32⟩
  | .local _ .vmem, ⟨1, _⟩ => ⟨S1025x128, .f32⟩
  | .local _ .vmem, ⟨2, _⟩ => ⟨S1x128, .f32⟩
  | .local _ .vmem, ⟨3, _⟩ => ⟨S1x128, .f32⟩
  | .local _ .vmem, ⟨4, _⟩ => ⟨S9217x128, .f32⟩
  | .local _ .vmem, ⟨5, _⟩ => ⟨S9217x128, .f32⟩
  | _, _ => ⟨S1025x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1025x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9217x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1025x128_S1x128_0_0 : ∀ a, (![0, 0] : Fin 2 → Nat) a + S1x128.size a ≤ S1025x128.size a
  h_S1x128 : 0 < S1x128.numel
  inb_S1025x128_S1024x128_1_0 : ∀ a, (![1, 0] : Fin 2 → Nat) a + S1024x128.size a ≤ S1025x128.size a
  h_S1024x128 : 0 < S1024x128.numel
  reduces_S1024x128_S128 : S1024x128.Reduces [0] S128
  shapeCasts_S128_S1x128 : S128.ShapeCasts S1x128
  inb_S1x128_S1x128_0_0 : ∀ a, (![0, 0] : Fin 2 → Nat) a + S1x128.size a ≤ S1x128.size a
  natLt_1_32 : 1 < 32
  inb_S1025x128_S1025x128_0_0 : ∀ a, (![0, 0] : Fin 2 → Nat) a + S1025x128.size a ≤ S1025x128.size a
  h_S1025x128 : 0 < S1025x128.numel
  broadcasts_S1x128_S1025x128 : S1x128.Broadcasts S1025x128
  slices_S1025x128_o0_0_S1x128 : S1025x128.Slices ![0, 0] S1x128
  inb_S9217x128_S1x128_0_0 : ∀ a, (![0, 0] : Fin 2 → Nat) a + S1x128.size a ≤ S9217x128.size a
  slices_S1025x128_o1_0_S1024x128 : S1025x128.Slices ![1, 0] S1024x128
  inb_S9217x128_S1024x128_1_0 : ∀ a, (![1, 0] : Fin 2 → Nat) a + S1024x128.size a ≤ S9217x128.size a
  iota_S8192x1_d0_w32 : S8192x1.Iotas .tc 32 [0]
  iota_S1x128_d1_w32 : S1x128.Iotas .tc 32 [1]
  broadcasts_S8192x1_S8192x128 : S8192x1.Broadcasts S8192x128
  broadcasts_S1x128_S8192x128 : S1x128.Broadcasts S8192x128
  shapeCasts_S1x128_S1x128 : S1x128.ShapeCasts S1x128
  inb_S9217x128_S8192x128_1025_0 : ∀ a, (![1025, 0] : Fin 2 → Nat) a + S8192x128.size a ≤ S9217x128.size a
  h_S8192x128 : 0 < S8192x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1025x128.size a ≤ S1025x8192.size a
  hwx0_0 : ∀ i : grid0.Coords, EltTy.bits .f32 = 32 ∨ (Rect.block (s := S1025x8192) S1025x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x8192.size a
  hwx0_1 : ∀ i : grid0.Coords, EltTy.bits .f32 = 32 ∨ (Rect.block (s := S1x8192) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9217x128.size a ≤ S9217x8192.size a
  hwx0_2 : ∀ i : grid0.Coords, EltTy.bits .f32 = 32 ∨ (Rect.block (s := S9217x8192) S9217x128.size (cc0_transform_2 i) (hinb0_2 i)).WholeWords (EltTy.packing .f32)

variable [Facts₀]

abbrev win0_0 : Pipeline.Window sig grid0 :=
  Pipeline.Window.ofSpec (Memref.whole main_arg0) S1025x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S9217x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1025x8192 : Shape := ⟨2, ![1025, 8192]⟩
abbrev S1x8192 : Shape := ⟨2, ![1, 8192]⟩
abbrev S1024x8192 : Shape := ⟨2, ![1024, 8192]⟩
abbrev S_ : Shape := ⟨0, ![]⟩
abbrev S8192 : Shape := ⟨1, ![8192]⟩
abbrev S1 : Shape := ⟨1, ![1]⟩
abbrev S8192x8192 : Shape := ⟨2, ![8192, 8192]⟩
abbrev S8192x1 : Shape := ⟨2, ![8192, 1]⟩
abbrev S8192x2 : Shape := ⟨2, ![8192, 2]⟩
abbrev S9217x8192 : Shape := ⟨2, ![9217, 8192]⟩

abbrev nBuf : Space → Nat
  | .hbm => 66
  | .vmem => 0
  | .smem => 0
  | _ => 0

abbrev bufTy : (tb : Table) → Fin (tcTables nBuf tb) → BufTy
  | .hbm, ⟨0, _⟩ => ⟨S1025x8192, .f32⟩
  | .hbm, ⟨1, _⟩ => ⟨S1x8192, .f32⟩
  | .hbm, ⟨2, _⟩ => ⟨S1024x8192, .f32⟩
  | .hbm, ⟨3, _⟩ => ⟨S1024x8192, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S8192, .f32⟩
  | .hbm, ⟨8, _⟩ => ⟨S8192, .f32⟩
  | .hbm, ⟨9, _⟩ => ⟨S1x8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .i1⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .i1⟩
  | .hbm, ⟨19, _⟩ => ⟨S_, .f32⟩
  | .hbm, ⟨20, _⟩ => ⟨S8192, .f32⟩
  | .hbm, ⟨21, _⟩ => ⟨S8192, .i1⟩
  | .hbm, ⟨22, _⟩ => ⟨S8192, .i1⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S1x8192, .f32⟩
  | .hbm, ⟨35, _⟩ => ⟨S1025x8192, .f32⟩
  | .hbm, ⟨36, _⟩ => ⟨S1025x8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S_, .i32⟩
  | .hbm, ⟨42, _⟩ => ⟨S1, .i32⟩
  | .hbm, ⟨43, _⟩ => ⟨S1025x8192, .f32⟩
  | .hbm, ⟨44, _⟩ => ⟨S8192, .i32⟩
  | .hbm, ⟨45, _⟩ => ⟨S_, .f32⟩
  | .hbm, ⟨46, _⟩ => ⟨S8192x8192, .f32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x1, .i32⟩
  | .hbm, ⟨63, _⟩ => ⟨S8192x2, .i32⟩
  | .hbm, ⟨64, _⟩ => ⟨S8192x8192, .f32⟩
  | .hbm, ⟨65, _⟩ => ⟨S9217x8192, .f32⟩
  | _, _ => ⟨S1025x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_c_6 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_8 : Ref sig .tc := ⟨.hbm, 54, rfl⟩
abbrev main_v42 : Ref sig .tc := ⟨.hbm, 55, rfl⟩
abbrev main_v43 : Ref sig .tc := ⟨.hbm, 56, rfl⟩
abbrev main_c_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]

class Facts₀ : Prop where
  slices_S1025x8192_S1024x8192_1_0 : S1025x8192.Slices ![1, 0] S1024x8192
  reducesTo_S1024x8192_S8192_d0 : S1024x8192.ReducesTo [0] S8192
  h_S_ : 0 < S_.numel
  slices_S1025x8192_S1x8192_0_0 : S1025x8192.Slices ![0, 0] S1x8192
  shapeCasts_S1x8192_S8192 : S1x8192.ShapeCasts S8192
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S1025x8192_0_1 : S1x8192.BroadcastsInDim S1025x8192 (![0, 1] : Fin 2 → Fin S1025x8192.rank)
  bcast_S_S1 : S_.BroadcastsInDim S1 (![] : Fin 0 → Fin S1.rank)
  bcast_S_S8192x8192 : S_.BroadcastsInDim S8192x8192 (![] : Fin 0 → Fin S8192x8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  concatenates_S1025x8192_S8192x8192_S9217x8192_d0 : Shape.Concatenates [S1025x8192, S8192x8192] S9217x8192 0
  scatter_S1025x8192_S1_S8192_0_0_0_0_wf : ScatterDims.WF S1025x8192 S1 S8192 [0] [0] [0] 0
  scatter_S8192x8192_S8192x2_S8192_n_01_01_1_wf : ScatterDims.WF S8192x8192 S8192x2 S8192 [] [0, 1] [0, 1] 1

variable [Facts₀]

def scatter_S1025x8192_S1_S8192_0_0_0_0 : ScatterDims S1025x8192 S1 S8192 where
  updateWindowDims := [0]
  insertedWindowDims := [0]
  scatterDimsToOperandDims := [0]
  indexVectorDim := 0
  wf := scatter_S1025x8192_S1_S8192_0_0_0_0_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.RefRun.lean ====
import proofs.«179633_j20899310863245_2_alg».proof.Proof.Gen.ReferenceIdeal
import Idealize.ShloMosaic.Lib.StableHlo.Run

/-!
# The reference's run

The reference is a straight line of 64 host operations. It is read here in two stretches.

* The first 39 operations compute, feature by feature, the bounds `lo = x₀ - Σ|xₖ|` and `hi = x₀ + Σ|xₖ|`, the two
  flags `pos = [lo > 0]` and `cross = [hi > 0 ∧ lo < 0]`, the offset `gap = max (-lo · λ) (hi · (1 - λ))`, the
  per-feature factor `scale = pos + cross · λ`, the scaled array `scale · x` and the half offset
  `half = (½ · cross) · gap`.
* The last 25 operations add `half` to row 0 of the scaled array (a scatter-add at the one row index `0`), build the
  index pairs `(i, i)`, write `half` on the diagonal of a zero square (a scatter-set at those pairs) and stack the
  two arrays.

The second stretch is read from ANY buffer contents `W`: it only needs what `W` holds for the scaled array and for
`half`, which the first stretch provides.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in two stretches -/

/-- Operations 1 … 39: up to the half offset. -/
abbrev opsA : List (HloOp τ sig (Elt F)) :=
  [ unary main_arg0 main_v0 ((extractStridedSlice S1024x8192 ![1, 0] · slices_S1025x8192_S1024x8192_1_0) : (⟨S1025x8192, .f32⟩ : BufTy).Contents (Elt F) → (⟨S1024x8192, .f32⟩ : BufTy).Contents (Elt F)),
    unary main_v0 main_v1 (Host.absf : (⟨S1024x8192, .f32⟩ : BufTy).Contents (Elt F) → (⟨S1024x8192, .f32⟩ : BufTy).Contents (Elt F)),
    nullary main_cst (constant S_ .f32 0x00000000#32),
    binary main_v1 main_cst main_v2 ((fun x v => Host.reduceAdd x v reducesTo_S1024x8192_S8192_d0 h_S_) : (⟨S1024x8192, .f32⟩ : BufTy).Contents (Elt F) → (⟨S_, .f32⟩ : BufTy).Contents (Elt F) → (⟨S8192, .f32⟩ : BufTy).Contents (Elt F)),
    unary main_arg0 main_v3 ((extractStridedSlice S1x8192 ![0, 0] · slices_S1025x8192_S1x8192_0_0) : (⟨S1025x8192, .f32⟩ : BufTy).Contents (Elt F) → (⟨S1x8192, .f32⟩ : BufTy).Contents (Elt F)),
    reshape main_v3 main_v4 rfl shapeCasts_S1x8192_S8192,
    binary main_v4 main_v2 main_v5 (subf : (⟨S8192, .f32⟩ : BufTy).Contents (Elt F) → (⟨S8192, .f32⟩ : BufTy).Contents (Elt F) → (⟨S8192, .f32⟩ : BufTy).Contents (Elt F)),
    unary main_arg0 main_v6 ((extractStridedSlice S1x8192 ![0, 0] · slices_S1025x8192_S1x8192_0_0) : (⟨S1025x8192, .f32⟩ : BufTy).Contents (Elt F) → (⟨S1x8192, .f32⟩ : BufTy).Contents (Elt F)),
    reshape main_v6 main_v7 rfl shapeCasts_S1x8192_S8192,
    binary main_v7 main_v2 main_v8 (addf : (⟨S8192, .f32⟩ : BufTy).Contents (Elt F) → (⟨S8192, .f32⟩ : BufTy).Contents (Elt F) → (⟨S8192, .f32⟩ : BufTy).Contents (Elt F)),
    nullary main_cst_0 (constant S_ .f32 0x00000000#32),
    unary main_cst_0 main_v9 (broadcastInDim S8192 ![] bcast_S_S8192 : (⟨S_, .f32⟩ : BufTy).Contents (Elt F) → (⟨S8192, .f32⟩ : BufTy).Contents (Elt F)),
    binary main_v5 main_v9 main_v10 (cmpf .ogt : (⟨S8192, .f32⟩ : BufTy).Contents (Elt F) → (⟨S8192, .f32⟩ : BufTy).Contents (Elt F) → (⟨S8192, .i1⟩ : BufTy).Contents (Elt F)),
    unary main_v10 main_v11 (uitofp .f32 : (⟨S8192, .i1⟩ : BufTy).Contents (Elt F) → (⟨S8192, .f32⟩ : BufTy).Contents (Elt F)),
    nullary main_cst_1 (constant S_ .f32 0x00000000#32),
    unary main_cst_1 main_v12 (broadcastInDim S8192 ![] bcast_S_S8192 : (⟨S_, .f32⟩ : BufTy).Contents (Elt F) → (⟨S8192, .f32⟩ : BufTy).Contents (Elt F)),
    binary main_v8 main_v12 main_v13 (cmpf .ogt : (⟨S8192, .f32⟩ : BufTy).Contents (Elt F) → (⟨S8192, .f32⟩ : BufTy).Contents (Elt F) → (⟨S8192, .i1⟩ : BufTy).Contents (Elt F)),
    nullary main_cst_2 (constant S_ .f32 0x00000000#32),
    unary main_cst_2 main_v14 (broadcastInDim S8192 ![] bcast_S_S8192 : (⟨S_, .f32⟩ : BufTy).Contents (Elt F) → (⟨S8192, .f32⟩ : BufTy).Contents (Elt F)),
    binary main_v5 main_v14 main_v15 (cmpf .olt : (⟨S8192, .f32⟩ : BufTy).Contents (Elt F) → (⟨S8192, .f32⟩ : BufTy).Contents (Elt F) → (⟨S8192, .i1⟩ : BufTy).Contents (Elt F)),
    binary main_v13 main_v15 main_v16 (andi : (⟨S8192, .i1⟩ : BufTy).Contents (Elt F) → (⟨S8192, .i1⟩ : BufTy).Contents (Elt F) → (⟨S8192, .i1⟩ : BufTy).Contents (Elt F)),
    unary main_v16 main_v17 (uitofp .f32 : (⟨S8192, .i1⟩ : BufTy).Contents (Elt F) → (⟨S8192, .f32⟩ : BufTy).Contents (Elt F)),
    reshape main_arg1 main_v18 rfl shapeCasts_S1x8192_S8192,
    unary main_v5 main_v19 (Host.negf : (⟨S8192, .f32⟩ : BufTy).Contents (Elt F) → (⟨S8192, .f32⟩ : BufTy).Contents (Elt F)),
    binary main_v19 main_v18 main_v20 (mulf : (⟨S8192, .f32⟩ : BufTy).Contents (Elt F) → (⟨S8192, .f32⟩ : BufTy).Contents (Elt F) → (⟨S8192, .f32⟩ : BufTy).Contents (Elt F)),
    nullary main_cst_3 (constant S_ .f32 0x3F800000#32),
    unary main_cst_3 main_v21 (broadcastInDim S8192 ![] bcast_S_S8192 : (⟨S_, .f32⟩ : BufTy).Contents (Elt F) → (⟨S8192, .f32⟩ : BufTy).Contents (Elt F)),
    binary main_v21 main_v18 main_v22 (subf : (⟨S8192, .f32⟩ : BufTy).Contents (Elt F) → (⟨S8192, .f32⟩ : BufTy).Contents (Elt F) → (⟨S8192, .f32⟩ : BufTy).Contents (Elt F)),
    binary main_v8 main_v22 main_v23 (mulf : (⟨S8192, .f32⟩ : BufTy).Contents (Elt F) → (⟨S8192, .f32⟩ : BufTy).Contents (Elt F) → (⟨S8192, .f32⟩ : BufTy).Contents (Elt F)),
    binary main_v20 main_v23 main_v24 (maximumf : (⟨S8192, .f32⟩ : BufTy).Contents (Elt F) → (⟨S8192, .f32⟩ : BufTy).Contents (Elt F) → (⟨S8192, .f32⟩ : BufTy).Contents (Elt F)),
    binary main_v17 main_v18 main_v25 (mulf : (⟨S8192, .f32⟩ : BufTy).Contents (Elt F) → (⟨S8192, .f32⟩ : BufTy).Contents (Elt F) → (⟨S8192, .f32⟩ : BufTy).Contents (Elt F)),
    binary main_v11 main_v25 main_v26 (addf : (⟨S8192, .f32⟩ : BufTy).Contents (Elt F) → (⟨S8192, .f32⟩ : BufTy).Contents (Elt F) → (⟨S8192, .f32⟩ : BufTy).Contents (Elt F)),
    unary main_v26 main_v27 (broadcastInDim S1x8192 ![1] bcast_S8192_S1x8192_1 : (⟨S8192, .f32⟩ : BufTy).Contents (Elt F) → (⟨S1x8192, .f32⟩ : BufTy).Contents (Elt F)),
    unary main_v27 main_v28 (broadcastInDim S1025x8192 ![0, 1] bcast_S1x8192_S1025x8192_0_1 : (⟨S1x8192, .f32⟩ : BufTy).Contents (Elt F) → (⟨S1025x8192, .f32⟩ : BufTy).Contents (Elt F)),
    binary main_v28 main_arg0 main_v29 (mulf : (⟨S1025x8192, .f32⟩ : BufTy).Contents (Elt F) → (⟨S1025x8192, .f32⟩ : BufTy).Contents (Elt F) → (⟨S1025x8192, .f32⟩ : BufTy).Contents (Elt F)),
    nullary main_cst_4 (constant S_ .f32 0x3F000000#32),
    unary main_cst_4 main_v30 (broadcastInDim S8192 ![] bcast_S_S8192 : (⟨S_, .f32⟩ : BufTy).Contents (Elt F) → (⟨S8192, .f32⟩ : BufTy).Contents (Elt F)),
    binary main_v30 main_v17 main_v31 (mulf : (⟨S8192, .f32⟩ : BufTy).Contents (Elt F) → (⟨S8192, .f32⟩ : BufTy).Contents (Elt F) → (⟨S8192, .f32⟩ : BufTy).Contents (Elt F)),
    binary main_v31 main_v24 main_v32 (mulf : (⟨S8192, .f32⟩ : BufTy).Contents (Elt F) → (⟨S8192, .f32⟩ : BufTy).Contents (Elt F) → (⟨S8192, .f32⟩ : BufTy).Contents (Elt F)) ]

/-- Operations 40 … 64: the two scatters and the stacking. -/
abbrev opsB : List (HloOp τ sig (Elt F)) :=
  [ nullary main_c (constantI S_ 32 0#32),
    unary main_c main_v33 (broadcastInDim S1 ![] bcast_S_S1 : (⟨S_, .i32⟩ : BufTy).Contents (Elt F) → (⟨S1, .i32⟩ : BufTy).Contents (Elt F)),
    ternary main_v29 main_v33 main_v32 main_v34 ((fun x i u => Host.scatter scatter_S1025x8192_S1_S8192_0_0_0_0 FloatOps.addf x i u) : (⟨S1025x8192, .f32⟩ : BufTy).Contents (Elt F) → (⟨S1, .i32⟩ : BufTy).Contents (Elt F) → (⟨S8192, .f32⟩ : BufTy).Contents (Elt F) → (⟨S1025x8192, .f32⟩ : BufTy).Contents (Elt F)),
    nullary main_v35 (iotaInDim S8192 32 0),
    nullary main_cst_5 (constant S_ .f32 0x00000000#32),
    unary main_cst_5 main_v36 (broadcastInDim S8192x8192 ![] bcast_S_S8192x8192 : (⟨S_, .f32⟩ : BufTy).Contents (Elt F) → (⟨S8192x8192, .f32⟩ : BufTy).Contents (Elt F)),
    nullary main_c_6 (constantI S_ 32 0#32),
    unary main_c_6 main_v37 (broadcastInDim S8192 ![] bcast_S_S8192 : (⟨S_, .i32⟩ : BufTy).Contents (Elt F) → (⟨S8192, .i32⟩ : BufTy).Contents (Elt F)),
    binary main_v35 main_v37 main_v38 (cmpi .slt : (⟨S8192, .i32⟩ : BufTy).Contents (Elt F) → (⟨S8192, .i32⟩ : BufTy).Contents (Elt F) → (⟨S8192, .i1⟩ : BufTy).Contents (Elt F)),
    nullary main_c_7 (constantI S_ 32 8192#32),
    unary main_c_7 main_v39 (broadcastInDim S8192 ![] bcast_S_S8192 : (⟨S_, .i32⟩ : BufTy).Contents (Elt F) → (⟨S8192, .i32⟩ : BufTy).Contents (Elt F)),
    binary main_v35 main_v39 main_v40 (addi : (⟨S8192, .i32⟩ : BufTy).Contents (Elt F) → (⟨S8192, .i32⟩ : BufTy).Contents (Elt F) → (⟨S8192, .i32⟩ : BufTy).Contents (Elt F)),
    ternary main_v38 main_v40 main_v35 main_v41 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_8 (constantI S_ 32 0#32),
    unary main_c_8 main_v42 (broadcastInDim S8192 ![] bcast_S_S8192 : (⟨S_, .i32⟩ : BufTy).Contents (Elt F) → (⟨S8192, .i32⟩ : BufTy).Contents (Elt F)),
    binary main_v35 main_v42 main_v43 (cmpi .slt : (⟨S8192, .i32⟩ : BufTy).Contents (Elt F) → (⟨S8192, .i32⟩ : BufTy).Contents (Elt F) → (⟨S8192, .i1⟩ : BufTy).Contents (Elt F)),
    nullary main_c_9 (constantI S_ 32 8192#32),
    unary main_c_9 main_v44 (broadcastInDim S8192 ![] bcast_S_S8192 : (⟨S_, .i32⟩ : BufTy).Contents (Elt F) → (⟨S8192, .i32⟩ : BufTy).Contents (Elt F)),
    binary main_v35 main_v44 main_v45 (addi : (⟨S8192, .i32⟩ : BufTy).Contents (Elt F) → (⟨S8192, .i32⟩ : BufTy).Contents (Elt F) → (⟨S8192, .i32⟩ : BufTy).Contents (Elt F)),
    ternary main_v43 main_v45 main_v35 main_v46 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v41 main_v47 (broadcastInDim S8192x1 ![0] bcast_S8192_S8192x1_0 : (⟨S8192, .i32⟩ : BufTy).Contents (Elt F) → (⟨S8192x1, .i32⟩ : BufTy).Contents (Elt F)),
    unary main_v46 main_v48 (broadcastInDim S8192x1 ![0] bcast_S8192_S8192x1_0 : (⟨S8192, .i32⟩ : BufTy).Contents (Elt F) → (⟨S8192x1, .i32⟩ : BufTy).Contents (Elt F)),
    binary main_v47 main_v48 main_v49 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    ternary main_v36 main_v49 main_v32 main_v50 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)),
    binary main_v34 main_v50 main_v51 ((fun a b => concatenate S9217x8192 0 [⟨S1025x8192, a⟩, ⟨S8192x8192, b⟩] concatenates_S1025x8192_S8192x8192_S9217x8192_d0) : (⟨S1025x8192, .f32⟩ : BufTy).Contents (Elt F) → (⟨S8192x8192, .f32⟩ : BufTy).Contents (Elt F) → (⟨S9217x8192, .f32⟩ : BufTy).Contents (Elt F)) ]

/-- @main's 64 operations, in order. -/
abbrev ops : List (HloOp τ sig (Elt F)) := opsA ++ opsB

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., unary_bufs_sub .., nullary_bufs_sub .., binary_bufs_sub .., unary_bufs_sub .., reshape_bufs_sub .., binary_bufs_sub .., unary_bufs_sub .., reshape_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., nullary_bufs_sub .., unary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., ternary_bufs_sub .., nullary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op h => (List.mem_append.mp h).elim (opsA_fresh op) (opsB_fresh op)

/-- Two stretches run one after the other. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## The first stretch, feature by feature -/

section Stages

variable (x0 : FVec F S1025x8192 .f32) (x1 : FVec F S1x8192 .f32)

/-- The zero word on every feature. -/
def zeros : FVec F S8192 .f32 := broadcastInDim S8192 ![] bcast_S_S8192 (constant S_ .f32 0x00000000#32)
/-- `Σₖ |x[1 + k, ·]|`: the error rows' absolute values summed down each column. -/
def absSum : FVec F S8192 .f32 :=
  Host.reduceAdd (Host.absf (extractStridedSlice S1024x8192 ![1, 0] x0 slices_S1025x8192_S1024x8192_1_0))
    (constant S_ .f32 0x00000000#32) reducesTo_S1024x8192_S8192_d0 h_S_
/-- Row 0, the centre. -/
def centre : FVec F S8192 .f32 :=
  shapeCast _ (extractStridedSlice S1x8192 ![0, 0] x0 slices_S1025x8192_S1x8192_0_0) shapeCasts_S1x8192_S8192
/-- The lower and upper bounds. -/
def lo : FVec F S8192 .f32 := subf (centre x0) (absSum x0)
def hi : FVec F S8192 .f32 := addf (centre x0) (absSum x0)
/-- `[lo > 0]` and `[hi > 0 ∧ lo < 0]` as floats. -/
def pos : FVec F S8192 .f32 := uitofp .f32 (cmpf .ogt (lo x0) zeros)
def cross : FVec F S8192 .f32 := uitofp .f32 (andi (cmpf .ogt (hi x0) zeros) (cmpf .olt (lo x0) zeros))
/-- The slopes as a vector. -/
def lam : FVec F S8192 .f32 := shapeCast _ x1 shapeCasts_S1x8192_S8192
/-- `max (-lo · λ) (hi · (1 - λ))`. -/
def gap : FVec F S8192 .f32 :=
  maximumf (mulf (Host.negf (lo x0)) (lam x1))
    (mulf (hi x0) (subf (broadcastInDim S8192 ![] bcast_S_S8192 (constant S_ .f32 0x3F800000#32)) (lam x1)))
/-- `pos + cross · λ`. -/
def scale : FVec F S8192 .f32 := addf (pos x0) (mulf (cross x0) (lam x1))
/-- `scale · x`, every row. -/
def scaled : FVec F S1025x8192 .f32 :=
  mulf (broadcastInDim S1025x8192 ![0, 1] bcast_S1x8192_S1025x8192_0_1
    (broadcastInDim S1x8192 ![1] bcast_S8192_S1x8192_1 (scale x0 x1))) x0
/-- `(½ · cross) · gap`. -/
def half : FVec F S8192 .f32 :=
  mulf (mulf (broadcastInDim S8192 ![] bcast_S_S8192 (constant S_ .f32 0x3F000000#32)) (cross x0)) (gap x0 x1)

end Stages

/-! ## The second stretch's index arrays -/

/-- The one row index `[0]` of the scatter-add. -/
def rowIdx : IVec S1 32 := broadcastInDim S1 ![] bcast_S_S1 (constantI S_ 32 0#32)
/-- `i ↦ i`, with negative entries wrapped by the extent (none is negative). -/
def wrapIdx : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)
/-- The index pairs `(i, i)`. -/
def diagIdx : IVec S8192x2 32 :=
  concatenate S8192x2 1 [⟨S8192x1, broadcastInDim S8192x1 ![0] bcast_S8192_S8192x1_0 wrapIdx⟩,
    ⟨S8192x1, broadcastInDim S8192x1 ![0] bcast_S8192_S8192x1_0 wrapIdx⟩] concatenates_S8192x1_S8192x1_S8192x2_d1

/-- The result from the scaled array `a` and the half offset `h`: `h` added to row 0 of `a`, stacked on the zero
    square with `h` written on its diagonal. -/
def stack (a : FVec F S1025x8192 .f32) (h : FVec F S8192 .f32) : FVec F S9217x8192 .f32 :=
  concatenate S9217x8192 0
    [⟨S1025x8192, Host.scatter scatter_S1025x8192_S1_S8192_0_0_0_0 FloatOps.addf a rowIdx h⟩,
     ⟨S8192x8192, Host.scatter scatter_S8192x8192_S8192x2_S8192_n_01_01_1 (fun _ b => b)
        (broadcastInDim S8192x8192 ![] bcast_S_S8192x8192 (constant S_ .f32 0x00000000#32)) diagIdx h⟩]
    concatenates_S1025x8192_S8192x8192_S9217x8192_d0

/-- The reference's result as a function of its two arguments. -/
def result (x0 : FVec F S1025x8192 .f32) (x1 : FVec F S1x8192 .f32) : FVec F S9217x8192 .f32 :=
  stack (scaled x0 x1) (half x0 x1)

/-! ## Reading the two stretches -/

set_option maxRecDepth 8192 in
set_option maxHeartbeats 25600000 in
/-- After the first stretch the scaled array's buffer holds `scale · x`. -/
theorem afterA_scaled (V : Valuation τ sig (Elt F)) :
    after opsA V (Proc.devRef .tc main_v29) = scaled (V (Proc.devRef .tc main_arg0)) (V (Proc.devRef .tc main_arg1)) := by
  after_results_simp <;> rfl

set_option maxRecDepth 8192 in
set_option maxHeartbeats 25600000 in
/-- After the first stretch the half offset's buffer holds `(½ · cross) · gap`. -/
theorem afterA_half (V : Valuation τ sig (Elt F)) :
    after opsA V (Proc.devRef .tc main_v32) = half (V (Proc.devRef .tc main_arg0)) (V (Proc.devRef .tc main_arg1)) := by
  after_results_simp <;> rfl

set_option maxRecDepth 8192 in
set_option maxHeartbeats 25600000 in
/-- The second stretch, from any contents: the result buffer holds the stack of what the contents have for the scaled
    array and the half offset. -/
theorem afterB_result (W : Valuation τ sig (Elt F)) :
    after opsB W (Proc.devRef .tc main_v51) = stack (W (Proc.devRef .tc main_v29)) (W (Proc.devRef .tc main_v32)) := by
  after_results <;> rfl

set_option maxRecDepth 8192 in
set_option maxHeartbeats 25600000 in
theorem after_arg0 (V : Valuation τ sig (Elt F)) : after ops V (Proc.devRef .tc main_arg0) = V (Proc.devRef .tc main_arg0) := by
  rw [after_append]; after_results_simp
set_option maxRecDepth 8192 in
set_option maxHeartbeats 25600000 in
theorem after_arg1 (V : Valuation τ sig (Elt F)) : after ops V (Proc.devRef .tc main_arg1) = V (Proc.devRef .tc main_arg1) := by
  rw [after_append]; after_results_simp

/-- Both stretches: the result buffer holds `result` of the arguments. -/
theorem after_result (V : Valuation τ sig (Elt F)) :
    after ops V (Proc.devRef .tc main_v51) = result (V (Proc.devRef .tc main_arg0)) (V (Proc.devRef .tc main_arg1)) := by
  rw [after_append, afterB_result, afterA_scaled, afterA_half]; rfl

/-! ## The run -/

/-- On every device, from any memory with zero counters: every weakly fair execution of @main terminates with the
    result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v51).trans (after_result _),
      (h c main_arg0).trans (after_arg0 _), (h c main_arg1).trans (after_arg1 _)⟩)
    (run_seq scopedRefs_eq scopedSems_eq defs main (fun _ => ops) main_eq (fun _ => ops_sub) m ρ (fun _ => ops_fresh))

end Cert.ReferenceIdeal.RefRun

end
-- ==== Proof.Spec.lean ====
import Idealize.ShloMosaic.PureOps.Ideal
import Idealize.ShloMosaic.PureOps.Ideal.Laws
import Idealize.ShloMosaic.Lib.ValueIdx

/-!
# What both programs compute, entry by entry

`x` is a 1025 × 8192 array whose row 0 is a centre and whose rows 1 … 1024 are error terms; `lm` is a 1 × 8192 row of
slopes. Everything about feature `C` depends only on column `C` of `x`, a function `u : Fin 1025 → EReal`, and on the
slope `s` of that feature:

* `radius u = Σₖ |u (1 + k)|`; `lo u = u 0 - radius u` and `hi u = u 0 + radius u`, the bounds;
* `pos u = [lo u > 0]` and `cross u = [hi u > 0 ∧ lo u < 0]`, as the numbers 0 and 1;
* `gap u s = max (-lo u · s) (hi u · (1 - s))`;
* `scale u s = pos u + cross u · s` and `half u s = (½ · cross u) · gap u s`.

The result is 9217 × 8192: row 0 is `scale · x[0, ·] + half`; rows 1 … 1024 are `scale · x[r, ·]`; and row
`1025 + i` is `half` at column `i` and the zero word elsewhere (a diagonal).

Everything is over the extended reals, with the float words `0`, `1` and `½` left as words: both programs use the
same words, so they are never evaluated. The column-level functions serve a 128-column block of `x` as well as the
whole array: a block's column is a column of the array.
-/

noncomputable section

namespace Cert.Spec

open Idealize.ShloMosaic Idealize.ShloMosaic.ValueIdx

/-- The zero word, read exactly. -/
abbrev Z : EReal := Ideal.ofBits .f32 0x00000000#32

/-- A one-bit flag as the number 0 or 1. -/
abbrev flag (b : BitVec 1) : EReal := ((b.toNat : ℝ) : EReal)

/-- The error row `1 + k`. -/
abbrev errRow (k : Fin 1024) : Fin 1025 := ⟨1 + k.val, by have := k.isLt; omega⟩

/-! ## One feature: a column and its slope -/

namespace Col

variable (u : Fin 1025 → EReal) (s : EReal)

/-- The radius: the error terms' absolute values, summed. -/
def radius : EReal := ∑ k : Fin 1024, max (u (errRow k)) (-(u (errRow k)))
/-- The lower and upper bounds. -/
def lo : EReal := u 0 - radius u
def hi : EReal := u 0 + radius u
/-- `[lo > 0]`. -/
def pos : EReal := flag (Ideal.cmp .ogt (lo u) Z)
/-- `[hi > 0 ∧ lo < 0]`. -/
def cross : EReal := flag (IntOp.andi (Ideal.cmp .ogt (hi u) Z) (Ideal.cmp .olt (lo u) Z))
/-- `max (-lo · s) (hi · (1 - s))`. -/
def gap : EReal := max (-(lo u) * s) (hi u * (Ideal.ofBits .f32 0x3F800000#32 - s))
/-- `pos + cross · s`. -/
def scale : EReal := pos u + cross u * s
/-- `(½ · cross) · gap`. -/
def half : EReal := Ideal.ofBits .f32 0x3F000000#32 * cross u * gap u s

/-- Entry `R` of the result's column for this feature; `onDiag` says whether row `R`, when it is one of the last 8192,
    is this feature's diagonal row. -/
def entry (R : Fin 9217) (onDiag : Prop) [Decidable onDiag] : EReal :=
  if R.val = 0 then scale u s * u 0 + half u s
  else if h1 : R.val < 1025 then scale u s * u ⟨R.val, h1⟩
  else if onDiag then half u s else Z

end Col

/-! ## The whole arrays -/

variable (x : (⟨2, ![1025, 8192]⟩ : Shape).Idx → EReal) (lm : (⟨2, ![1, 8192]⟩ : Shape).Idx → EReal)

/-- Column `C` of `x`. -/
abbrev col (C : Fin 8192) : Fin 1025 → EReal := fun r => x (ix2 r C)
/-- The slope of feature `C`. -/
abbrev slope (C : Fin 8192) : EReal := lm (ix2 (0 : Fin 1) C)

/-- Entry `(R, C)` of the result. -/
def entry (R : Fin 9217) (C : Fin 8192) : EReal := Col.entry (col x C) (slope lm C) R (R.val - 1025 = C.val)

/-- The whole result, entry by entry. -/
def G : (⟨2, ![9217, 8192]⟩ : Shape).Idx → EReal := fun j => entry x lm (j 0) (j 1)

theorem G_ix2 (R : Fin 9217) (C : Fin 8192) : G x lm (ix2 R C) = entry x lm R C := rfl

theorem entry_top (R : Fin 9217) (C : Fin 8192) (h0 : R.val = 0) :
    entry x lm R C = Col.scale (col x C) (slope lm C) * x (ix2 (0 : Fin 1025) C) + Col.half (col x C) (slope lm C) := by
  unfold entry Col.entry; rw [if_pos h0]

theorem entry_body (R : Fin 9217) (C : Fin 8192) (h0 : R.val ≠ 0) (h1 : R.val < 1025) :
    entry x lm R C = Col.scale (col x C) (slope lm C) * x (ix2 (⟨R.val, h1⟩ : Fin 1025) C) := by
  unfold entry Col.entry; rw [if_neg h0, dif_pos h1]

theorem entry_diag (R : Fin 9217) (C : Fin 8192) (h1 : 1025 ≤ R.val) :
    entry x lm R C = if R.val - 1025 = C.val then Col.half (col x C) (slope lm C) else Z := by
  unfold entry Col.entry; rw [if_neg (by omega), dif_neg (by omega)]

end Cert.Spec

end
-- ==== Proof.LibColumns.lean ====
/-
  Column-by-column readings of two-axis arrays, for any sizes.

  A reduction down the rows of an `n × k` array leaves one number per column: entry `c` of the result is the sum over
  the row coordinate `a` of the array at `(a, c)`. The lemmas below read such a sum at a column, in a kernel's spelling
  (a lane reduction from the zero word) and in the host's (a reduce with an initial value); turn a sum over a one-axis
  index set, or over the index set of a `1 × n` row, into the sum over the coordinate; and say that a one-bit flag
  widened to a 32-bit word and read as a signed integer is the same extended real as the flag read as an unsigned one.
-/
import Idealize.ShloMosaic.Lib.ValueIdx
import Idealize.ShloMosaic.PureOps.Ideal.Laws

noncomputable section

namespace Cert.Lib.Columns

open Idealize.ShloMosaic Idealize.ShloMosaic.ValueIdx

/-! ## Sums down a column -/

/-- The index of an `n × k` array over column `c` with the row `a` put back. -/
theorem lift_col {n k : ℕ} (h : (⟨2, ![n, k]⟩ : Shape).Reduces [0] ⟨1, ![k]⟩) (c : Fin k) (a : Fin n) :
    h.lift (ix1 c) a = ix2 a c := by
  funext ax; apply Fin.ext
  match ax with
  | ⟨0, _⟩ => rfl
  | ⟨1, _⟩ => rfl

/-- A lane reduction of an `n × k` array down its rows reads, at column `c`, the sum of that column. -/
theorem colSum_apply {n k : ℕ} {φ : FTy} (src : FVec Ideal ⟨2, ![n, k]⟩ φ) (acc : BitVec φ.bits)
    (h : (⟨2, ![n, k]⟩ : Shape).Reduces [0] ⟨1, ![k]⟩) (hφ : FKind.Formats φ) (hacc : acc = FKind.add.neutral φ hφ) (c : Fin k) :
    multiReduction .add [0] ⟨1, ![k]⟩ src acc h hφ hacc (ix1 c) = ∑ a : Fin n, src (ix2 a c) := by
  rw [Ideal.multiReduction_add_single]
  exact Finset.sum_congr rfl fun a _ => congrArg src (lift_col h c a)

/-- The same for an f32 lane sum from the zero word, with the accumulator's side condition spelt as a program prints it
    (the word equal to itself). -/
theorem colSum_f32_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = 0x00000000#32) (c : Fin k) :
    multiReduction .add [0] ⟨1, ![k]⟩ src 0x00000000#32 h hφ hacc (ix1 c) = ∑ a : Fin n, src (ix2 a c) :=
  colSum_apply src 0x00000000#32 h hφ hacc c

/-- The host's sum of an `n × k` array down its rows reads, at column `c`, the initial value plus the sum of that column. -/
theorem hostColSum_apply {n k : ℕ} {φ : FTy} {u : Shape} (x : FVec Ideal ⟨2, ![n, k]⟩ φ) (init : u.Idx → Ideal φ)
    (h' : (⟨2, ![n, k]⟩ : Shape).ReducesTo [0] ⟨1, ![k]⟩) (hu : 0 < u.numel)
    (h : (⟨2, ![n, k]⟩ : Shape).Reduces [0] ⟨1, ![k]⟩) (c : Fin k) :
    Host.reduceAdd x init h' hu (ix1 c) = init (Shape.Idx.first hu) + ∑ a : Fin n, x (ix2 a c) := by
  show Ideal.hostReduceAdd h' x (init (Shape.Idx.first hu)) (ix1 c) = _
  rw [Ideal.hostReduceAdd_single h' h]
  exact congrArg (init (Shape.Idx.first hu) + ·) (Finset.sum_congr rfl fun a _ => congrArg x (lift_col h c a))

/-! ## Sums over the index set of a vector and of a one-row matrix -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-- A sum over the index set of a `1 × n` row is the sum over the column coordinate, the row coordinate being `0`. -/
theorem sum_idx_1n {A : Type*} [AddCommMonoid A] {n : ℕ} (f : (⟨2, ![1, n]⟩ : Shape).Idx → A) :
    ∑ i, f i = ∑ c : Fin n, f (ix2 (0 : Fin 1) c) := by
  rw [sum_idx2]
  exact Fin.sum_univ_one _

/-! ## A one-bit flag as a number -/

/-- A one-bit flag widened by zeros to a 32-bit word and read as a signed integer is the flag read as an unsigned one:
    `0` or `1` either way. -/
theorem sitofp_setWidth_bit (b : BitVec 1) :
    FloatOps.sitofp (F := Ideal) .f32 (b.setWidth 32) = FloatOps.uitofp (F := Ideal) .f32 b := by
  have h : (b.setWidth 32).toInt = (b.toNat : ℤ) := by
    rcases BitVec.eq_zero_or_eq_one b with h | h <;> subst h <;> decide
  show (((b.setWidth 32).toInt : ℝ) : EReal) = ((b.toNat : ℝ) : EReal)
  rw [h, Int.cast_natCast]

end Cert.Lib.Columns

end
-- ==== Proof.LibScatter.lean ====
import Idealize.ShloMosaic.PureOps

/-!
# A scatter read at one index

`Host.scatter` is a left fold, over the update indices in row-major order, of "replace the operand's element at
the update's result index by the body applied to it and the update". Read at ONE operand index `k` the fold is
easy whenever at most one update lands on `k`:

* no update lands on `k`: the element is the operand's;
* exactly one update `j` lands on `k`: the element is the body applied to the operand's element and update `j`.

Both are statements about a left fold of point updates over a duplicate-free list, proved once for an abstract
step function and then read off `Host.scatter`'s definition.
-/

namespace Idealize.ShloMosaic.ScatterRead

section Fold

variable {ι κ α : Type} (step : (κ → α) → ι → (κ → α)) (ρ : ι → Option κ) (g : ι → α) (f : α → α → α) (k : κ)

/-- A fold of steps none of which touches `k` leaves the element at `k` alone. -/
theorem foldl_apply_of_forall_ne (hmiss : ∀ r n, ρ n ≠ some k → step r n k = r k) :
    ∀ (L : List ι) (r : κ → α), (∀ n ∈ L, ρ n ≠ some k) → L.foldl step r k = r k
  | [], _, _ => rfl
  | a :: L, r, h => by
    rw [List.foldl_cons, foldl_apply_of_forall_ne hmiss L (step r a) fun n hn => h n (List.mem_cons_of_mem _ hn)]
    exact hmiss r a (h a List.mem_cons_self)

/-- A fold over a duplicate-free list in which exactly one step `j` touches `k` applies that step's body there. -/
theorem foldl_apply_of_unique (hmiss : ∀ r n, ρ n ≠ some k → step r n k = r k)
    (hhit : ∀ r n, ρ n = some k → step r n k = f (r k) (g n)) (j : ι) (hj : ρ j = some k) :
    ∀ (L : List ι) (r : κ → α), L.Nodup → j ∈ L → (∀ n ∈ L, ρ n = some k → n = j) →
      L.foldl step r k = f (r k) (g j)
  | [], _, _, hm, _ => absurd hm List.not_mem_nil
  | a :: L, r, hnd, hm, hu => by
    rw [List.foldl_cons]
    have hnd' := List.nodup_cons.mp hnd
    by_cases ha : a = j
    · subst ha
      rw [foldl_apply_of_forall_ne step ρ k hmiss L (step r a) fun n hn hρ => hnd'.1 (hu n (List.mem_cons_of_mem _ hn) hρ ▸ hn)]
      exact hhit r a hj
    · have hj' : j ∈ L := by
        rcases List.mem_cons.mp hm with h | h
        · exact absurd h.symm ha
        · exact h
      have hρa : ρ a ≠ some k := fun h => ha (hu a List.mem_cons_self h)
      rw [foldl_apply_of_unique hmiss hhit j hj L (step r a) hnd'.2 hj' fun n hn => hu n (List.mem_cons_of_mem _ hn),
        hmiss r a hρa]

end Fold

variable {s si u : Shape} {α : Type} {w : Nat}

/-- The two facts about one step of `Host.scatter`'s fold, read at a fixed operand index `k`. -/
private theorem step_miss (d : ScatterDims s si u) (f : α → α → α) (idx : IVec si w) (upd : u.Idx → α) (k : s.Idx)
    (r : s.Idx → α) (n : Fin u.numel) (h : d.resultIdx? (u.rowMajor.symm n) idx ≠ some k) :
    (match d.resultIdx? (u.rowMajor.symm n) idx with
      | some i => fun i' => if i' = i then f (r i) (upd (u.rowMajor.symm n)) else r i'
      | none => r) k = r k := by
  cases hρ : d.resultIdx? (u.rowMajor.symm n) idx with
  | none => rfl
  | some i =>
    have hki : k ≠ i := fun e => h (by rw [hρ, e])
    show (if k = i then _ else r k) = r k
    rw [if_neg hki]

private theorem step_hit (d : ScatterDims s si u) (f : α → α → α) (idx : IVec si w) (upd : u.Idx → α) (k : s.Idx)
    (r : s.Idx → α) (n : Fin u.numel) (h : d.resultIdx? (u.rowMajor.symm n) idx = some k) :
    (match d.resultIdx? (u.rowMajor.symm n) idx with
      | some i => fun i' => if i' = i then f (r i) (upd (u.rowMajor.symm n)) else r i'
      | none => r) k = f (r k) (upd (u.rowMajor.symm n)) := by
  rw [h]
  show (if k = k then _ else r k) = _
  rw [if_pos rfl]

/-- An operand index on which NO update lands keeps the operand's element. -/
theorem scatter_apply_of_forall_ne (d : ScatterDims s si u) (f : α → α → α) (x : s.Idx → α) (idx : IVec si w)
    (upd : u.Idx → α) (k : s.Idx) (h : ∀ j : u.Idx, d.resultIdx? j idx ≠ some k) :
    Host.scatter d f x idx upd k = x k := by
  unfold Host.scatter
  exact foldl_apply_of_forall_ne _ (fun n => d.resultIdx? (u.rowMajor.symm n) idx) k
    (fun r n hn => step_miss d f idx upd k r n hn) _ x fun n _ => h _

/-- An operand index on which EXACTLY ONE update `j` lands holds the body applied to the operand's element and that
    update. -/
theorem scatter_apply_of_unique (d : ScatterDims s si u) (f : α → α → α) (x : s.Idx → α) (idx : IVec si w)
    (upd : u.Idx → α) (k : s.Idx) (j : u.Idx) (hj : d.resultIdx? j idx = some k)
    (hu : ∀ j' : u.Idx, d.resultIdx? j' idx = some k → j' = j) :
    Host.scatter d f x idx upd k = f (x k) (upd j) := by
  unfold Host.scatter
  refine (foldl_apply_of_unique _ (fun n => d.resultIdx? (u.rowMajor.symm n) idx) (fun n => upd (u.rowMajor.symm n)) f k
    (fun r n hn => step_miss d f idx upd k r n hn) (fun r n hn => step_hit d f idx upd k r n hn) (u.rowMajor j)
    (by show d.resultIdx? (u.rowMajor.symm (u.rowMajor j)) idx = some k; rw [Equiv.symm_apply_apply]; exact hj)
    (List.finRange u.numel) x (List.nodup_finRange _) (List.mem_finRange _)
    (fun n _ hn => by rw [← hu _ hn, Equiv.apply_symm_apply])).trans ?_
  show f (x k) (upd (u.rowMajor.symm (u.rowMajor j))) = _
  rw [Equiv.symm_apply_apply]

end Idealize.ShloMosaic.ScatterRead
-- ==== Proof.LibWords.lean ====
import Idealize.ShloMosaic.PureOps

/-!
# Small 32-bit words as the numbers they hold

A natural number below `2^31` written as a 32-bit word is non-negative as a signed integer and reads back as itself;
two numbers below `2^32` give equal words only when they are equal; and a word-level sum or product of small numbers
is the word of the sum or product. With these an index computed in 32-bit arithmetic is compared as a number.
-/

namespace Idealize.ShloMosaic.Words

/-- A number below `2^32` reads back from its word. -/
theorem toNat_ofNat_of_lt {n : ℕ} (h : n < 2 ^ 32) : (BitVec.ofNat 32 n).toNat = n := by
  rw [BitVec.toNat_ofNat]; exact Nat.mod_eq_of_lt h

/-- A number below `2^31` reads back from its word as a signed integer. -/
theorem toInt_ofNat_of_lt {n : ℕ} (h : n < 2 ^ 31) : (BitVec.ofNat 32 n).toInt = (n : ℤ) := by
  have hn : (BitVec.ofNat 32 n).toNat = n := toNat_ofNat_of_lt (by omega)
  rw [BitVec.toInt_eq_toNat_of_lt (by rw [hn]; omega), hn]

/-- Numbers below `2^32` with equal words are equal. -/
theorem ofNat_inj_of_lt {a b : ℕ} (ha : a < 2 ^ 32) (hb : b < 2 ^ 32) : BitVec.ofNat 32 a = BitVec.ofNat 32 b ↔ a = b := by
  constructor
  · intro h
    have := congrArg BitVec.toNat h
    rwa [toNat_ofNat_of_lt ha, toNat_ofNat_of_lt hb] at this
  · intro h; rw [h]

/-- A small number's word is not below zero as a signed integer. -/
theorem cmpi_slt_ofNat_zero {n : ℕ} (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt h]
    simp
  rw [this]; rfl

/-- Equality of the words of two numbers below `2^32` is equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : (BitVec.ofNat 32 a == BitVec.ofNat 32 b) = false := by
      rw [beq_eq_false_iff_ne]; exact fun e => h ((ofNat_inj_of_lt ha hb).mp e)
    rw [this]; rfl

end Idealize.ShloMosaic.Words
-- ==== Proof.RefValue.lean ====
import proofs.«179633_j20899310863245_2_alg».proof.Proof.RefRun
import proofs.«179633_j20899310863245_2_alg».proof.Proof.Spec
import proofs.«179633_j20899310863245_2_alg».proof.Proof.LibColumns
import proofs.«179633_j20899310863245_2_alg».proof.Proof.LibScatter
import proofs.«179633_j20899310863245_2_alg».proof.Proof.LibWords
import Idealize.ShloMosaic.Lib.Pipeline.Value
import Idealize.ShloMosaic.Lib.ValueIdx
import Idealize.ShloMosaic.PureOps.Ideal.Laws

/-!
# The reference's result is the specification

Over the extended reals each stage of the reference, read at feature `C`, is the specification's quantity of that
name: the host's sum down a column from the zero word is the radius (`0 + Σ = Σ`), its negation is the extended reals'
negation, a flag converted to a float is the number 0 or 1. The two scatters are read entry by entry: the first has
ONE update index per feature, landing at `(0, C)`, so row 0 gains `half` and every other row is untouched; the second
has update `i` landing at `(i, i)` — the index arithmetic wraps nothing, every `i` being below the extent — so the
zero square gets `half` on its diagonal. The final stacking reads the first array on rows below 1025 and the second
above.
-/

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.Words Idealize.ShloMosaic.ScatterRead

variable (x0 : FVec Ideal S1025x8192 .f32) (x1 : FVec Ideal S1x8192 .f32)

/-! ## The stages at a feature -/

/-- A float word spread over the features reads that word. -/
theorem splat_apply (b : BitVec 32) (C : Fin 8192) :
    broadcastInDim S8192 ![] bcast_S_S8192 (constant (F := Ideal) S_ .f32 b) (ix1 C) = Ideal.ofBits .f32 b :=
  broadcastInDim_apply _ bcast_S_S8192 _ (ix1 C) (fun a => a.elim0) (fun a => a.elim0)

theorem zeros_apply (C : Fin 8192) : zeros (F := Ideal) (ix1 C) = Spec.Z := splat_apply 0x00000000#32 C

theorem centre_apply (C : Fin 8192) : centre x0 (ix1 C) = x0 (ix2 (0 : Fin 1025) C) := by
  unfold centre
  refine (shapeCast_apply _ shapeCasts_S1x8192_S8192 (ix1 C) (ix2 (0 : Fin 1) C) ?_).trans ?_
  · rw [Shape.rowMajor_val_two, Shape.rowMajor_val_one]; show 0 * 8192 + C.val = C.val; omega
  · exact extractStridedSlice_apply ![0, 0] x0 slices_S1025x8192_S1x8192_0_0 (ix2 (0 : Fin 1) C) (ix2 (0 : Fin 1025) C)
      (fun a => match a with
        | ⟨0, _⟩ => rfl
        | ⟨1, _⟩ => by show C.val = 0 + C.val; omega)

theorem lam_apply (C : Fin 8192) : lam x1 (ix1 C) = Spec.slope x1 C := by
  unfold lam
  exact shapeCast_apply x1 shapeCasts_S1x8192_S8192 (ix1 C) (ix2 (0 : Fin 1) C)
    (by rw [Shape.rowMajor_val_two, Shape.rowMajor_val_one]; show 0 * 8192 + C.val = C.val; omega)

theorem absSum_apply (C : Fin 8192) : absSum x0 (ix1 C) = Spec.Col.radius (Spec.col x0 C) := by
  unfold absSum
  refine (Cert.Lib.Columns.hostColSum_apply _ _ reducesTo_S1024x8192_S8192_d0 h_S_ (by decide) C).trans ?_
  show Ideal.ofBits .f32 0x00000000#32 + _ = _
  rw [Ideal.ofBits_zero_f32, zero_add]
  unfold Spec.Col.radius
  refine Finset.sum_congr rfl fun k _ => ?_
  have e : extractStridedSlice S1024x8192 ![1, 0] x0 slices_S1025x8192_S1024x8192_1_0 (ix2 k C) = x0 (ix2 (Spec.errRow k) C) :=
    extractStridedSlice_apply ![1, 0] x0 slices_S1025x8192_S1024x8192_1_0 (ix2 k C) (ix2 (Spec.errRow k) C)
      (fun a => match a with
        | ⟨0, _⟩ => rfl
        | ⟨1, _⟩ => by show C.val = 0 + C.val; omega)
  show max (extractStridedSlice S1024x8192 ![1, 0] x0 slices_S1025x8192_S1024x8192_1_0 (ix2 k C))
      (-(extractStridedSlice S1024x8192 ![1, 0] x0 slices_S1025x8192_S1024x8192_1_0 (ix2 k C))) = _
  rw [e]

theorem lo_apply (C : Fin 8192) : lo x0 (ix1 C) = Spec.Col.lo (Spec.col x0 C) := by
  show centre x0 (ix1 C) - absSum x0 (ix1 C) = _
  rw [centre_apply, absSum_apply]; rfl

theorem hi_apply (C : Fin 8192) : hi x0 (ix1 C) = Spec.Col.hi (Spec.col x0 C) := by
  show centre x0 (ix1 C) + absSum x0 (ix1 C) = _
  rw [centre_apply, absSum_apply]; rfl

theorem pos_apply (C : Fin 8192) : pos x0 (ix1 C) = Spec.Col.pos (Spec.col x0 C) := by
  show Spec.flag (Ideal.cmp .ogt (lo x0 (ix1 C)) (zeros (F := Ideal) (ix1 C))) = _
  rw [lo_apply, zeros_apply]; rfl

theorem cross_apply (C : Fin 8192) : cross x0 (ix1 C) = Spec.Col.cross (Spec.col x0 C) := by
  show Spec.flag (IntOp.andi (Ideal.cmp .ogt (hi x0 (ix1 C)) (zeros (F := Ideal) (ix1 C)))
      (Ideal.cmp .olt (lo x0 (ix1 C)) (zeros (F := Ideal) (ix1 C)))) = _
  rw [lo_apply, hi_apply, zeros_apply]; rfl

theorem gap_apply (C : Fin 8192) : gap x0 x1 (ix1 C) = Spec.Col.gap (Spec.col x0 C) (Spec.slope x1 C) := by
  show max (-(lo x0 (ix1 C)) * lam x1 (ix1 C))
      (hi x0 (ix1 C) * (broadcastInDim S8192 ![] bcast_S_S8192 (constant (F := Ideal) S_ .f32 0x3F800000#32) (ix1 C) - lam x1 (ix1 C))) = _
  rw [lo_apply, hi_apply, lam_apply, splat_apply]; rfl

theorem scale_apply (C : Fin 8192) : scale x0 x1 (ix1 C) = Spec.Col.scale (Spec.col x0 C) (Spec.slope x1 C) := by
  show pos x0 (ix1 C) + cross x0 (ix1 C) * lam x1 (ix1 C) = _
  rw [pos_apply, cross_apply, lam_apply]; rfl

theorem half_apply (C : Fin 8192) : half x0 x1 (ix1 C) = Spec.Col.half (Spec.col x0 C) (Spec.slope x1 C) := by
  show broadcastInDim S8192 ![] bcast_S_S8192 (constant (F := Ideal) S_ .f32 0x3F000000#32) (ix1 C) * cross x0 (ix1 C) * gap x0 x1 (ix1 C) = _
  rw [splat_apply, cross_apply, gap_apply]; rfl

theorem scaled_apply (R : Fin 1025) (C : Fin 8192) :
    scaled x0 x1 (ix2 R C) = Spec.Col.scale (Spec.col x0 C) (Spec.slope x1 C) * x0 (ix2 R C) := by
  show broadcastInDim S1025x8192 ![0, 1] bcast_S1x8192_S1025x8192_0_1
      (broadcastInDim S1x8192 ![1] bcast_S8192_S1x8192_1 (scale x0 x1)) (ix2 R C) * x0 (ix2 R C) = _
  rw [broadcastInDim_apply _ bcast_S1x8192_S1025x8192_0_1 _ (ix2 R C) (ix2 (0 : Fin 1) C) (fun a => match a with
      | ⟨0, _⟩ => by show 0 = if (1 : ℕ) = 1 then 0 else R.val; rw [if_pos rfl]
      | ⟨1, _⟩ => by show C.val = if (8192 : ℕ) = 1 then 0 else C.val; rw [if_neg (by decide)]),
    broadcastInDim_apply _ bcast_S8192_S1x8192_1 _ (ix2 (0 : Fin 1) C) (ix1 C) (fun a => match a with
      | ⟨0, _⟩ => by show C.val = if (8192 : ℕ) = 1 then 0 else C.val; rw [if_neg (by decide)]),
    scale_apply]

/-! ## The first scatter: `half` added to row 0 -/

/-- Every update of the first scatter lands in row 0, at its own column. -/
theorem resultIdx_row (j : S8192.Idx) :
    scatter_S1025x8192_S1_S8192_0_0_0_0.resultIdx? j rowIdx = some (ix2 (0 : Fin 1025) (j 0)) := by
  have hs : ∀ a : Fin 2, scatter_S1025x8192_S1_S8192_0_0_0_0.start j rowIdx a + scatter_S1025x8192_S1_S8192_0_0_0_0.window j a
      = ((ix2 (0 : Fin 1025) (j 0) a).val : ℤ) := fun a => match a with
    | ⟨0, _⟩ => rfl
    | ⟨1, _⟩ => by
      show (0 : ℤ) + ((j 0).val : ℤ) = ((j 0).val : ℤ)
      omega
  unfold ScatterDims.resultIdx?
  rw [dif_pos (fun a => by
    rw [hs a]
    exact ⟨Int.natCast_nonneg _, Int.ofNat_lt.mpr (ix2 (0 : Fin 1025) (j 0) a).isLt⟩)]
  refine congrArg some (funext fun a => Fin.ext ?_)
  show (scatter_S1025x8192_S1_S8192_0_0_0_0.start j rowIdx a + scatter_S1025x8192_S1_S8192_0_0_0_0.window j a).toNat = _
  rw [hs a, Int.toNat_natCast]

/-- Row 0 of the first scatter's result: the scaled centre plus the half offset. -/
theorem rowScatter_top (a : FVec Ideal S1025x8192 .f32) (h : FVec Ideal S8192 .f32) (C : Fin 8192) :
    Host.scatter scatter_S1025x8192_S1_S8192_0_0_0_0 FloatOps.addf a rowIdx h (ix2 (0 : Fin 1025) C) = a (ix2 (0 : Fin 1025) C) + h (ix1 C) :=
  scatter_apply_of_unique _ _ _ _ _ _ (ix1 C) (resultIdx_row (ix1 C)) fun j' hj' => by
    rw [resultIdx_row j'] at hj'
    have e := congrFun (Option.some.inj hj') (1 : Fin 2)
    rw [eq_ix1 j']
    exact congrArg ix1 e

/-- Every other row is untouched. -/
theorem rowScatter_rest (a : FVec Ideal S1025x8192 .f32) (h : FVec Ideal S8192 .f32) (R : Fin 1025) (C : Fin 8192)
    (hR : R.val ≠ 0) :
    Host.scatter scatter_S1025x8192_S1_S8192_0_0_0_0 FloatOps.addf a rowIdx h (ix2 R C) = a (ix2 R C) :=
  scatter_apply_of_forall_ne _ _ _ _ _ _ fun j hj => by
    rw [resultIdx_row j] at hj
    have e := congrArg Fin.val (congrFun (Option.some.inj hj) (0 : Fin 2))
    exact hR e.symm

/-! ## The second scatter: `half` on the diagonal of the zero square -/

/-- The wrapped iota is the iota: no entry is negative. -/
theorem wrapIdx_apply (k : Fin 8192) : wrapIdx (ix1 k) = BitVec.ofNat 32 k.val := by
  show Scalar.select (IntOp.cmpi .slt (BitVec.ofNat 32 k.val)
      (broadcastInDim S8192 ![] bcast_S_S8192 (constantI S_ 32 0#32) (ix1 k))) _ (BitVec.ofNat 32 k.val) = _
  rw [show broadcastInDim S8192 ![] bcast_S_S8192 (constantI S_ 32 0#32) (ix1 k) = 0#32 from
    broadcastInDim_apply _ bcast_S_S8192 _ (ix1 k) (fun a => a.elim0) (fun a => a.elim0),
    cmpi_slt_ofNat_zero (by have := k.isLt; omega), select_zero]

/-- Both components of index pair `k` are `k`. -/
theorem diagIdx_apply (k : Fin 8192) (c : Fin 2) : diagIdx (ix2 k c) = BitVec.ofNat 32 k.val := by
  have hb : broadcastInDim S8192x1 ![0] bcast_S8192_S8192x1_0 wrapIdx (ix2 k (0 : Fin 1)) = BitVec.ofNat 32 k.val :=
    (broadcastInDim_apply _ bcast_S8192_S8192x1_0 wrapIdx (ix2 k (0 : Fin 1)) (ix1 k) (fun a => match a with
      | ⟨0, _⟩ => by show k.val = if (8192 : ℕ) = 1 then 0 else k.val; rw [if_neg (by decide)])).trans (wrapIdx_apply k)
  unfold diagIdx
  match c with
  | ⟨0, _⟩ =>
    refine (concatenate_pair_apply_left (t := S8192x2) (s₁ := S8192x1) (s₂ := S8192x1) (1 : Fin 2) _ _
      concatenates_S8192x1_S8192x1_S8192x2_d1 (ix2 k (0 : Fin 2)) rfl
      (ix2 k (0 : Fin 1)) (fun b => match b with | ⟨0, _⟩ => rfl | ⟨1, _⟩ => rfl)).trans hb
  | ⟨1, _⟩ =>
    refine (concatenate_pair_apply_right (t := S8192x2) (s₁ := S8192x1) (s₂ := S8192x1) (1 : Fin 2) _ _
      concatenates_S8192x1_S8192x1_S8192x2_d1 (ix2 k (1 : Fin 2)) rfl rfl
      (ix2 k (0 : Fin 1)) (fun b hb => match b, hb with
        | ⟨0, _⟩, _ => rfl
        | ⟨1, _⟩, hb => absurd rfl hb) rfl).trans hb

/-- Update `i` of the second scatter lands at `(i, i)`. -/
theorem resultIdx_diag (j : S8192.Idx) :
    scatter_S8192x8192_S8192x2_S8192_n_01_01_1.resultIdx? j diagIdx = some (ix2 (j 0) (j 0)) := by
  have hk : (BitVec.ofNat 32 (j 0).val).toInt = ((j 0).val : ℤ) :=
    toInt_ofNat_of_lt (by have h : (j 0).val < 8192 := (j 0).isLt; omega)
  have hstart : ∀ c : Fin 2, scatter_S8192x8192_S8192x2_S8192_n_01_01_1.start j diagIdx c = ((j 0).val : ℤ) := fun c => by
    have e : scatter_S8192x8192_S8192x2_S8192_n_01_01_1.start j diagIdx c = (diagIdx (ix2 (j 0) c)).toInt := by
      match c with
      | ⟨0, _⟩ =>
        show (diagIdx (scatter_S8192x8192_S8192x2_S8192_n_01_01_1.siIdx j _)).toInt = _
        exact congrArg (fun k => (diagIdx k).toInt) (funext fun b => match b with | ⟨0, _⟩ => rfl | ⟨1, _⟩ => rfl)
      | ⟨1, _⟩ =>
        show (diagIdx (scatter_S8192x8192_S8192x2_S8192_n_01_01_1.siIdx j _)).toInt = _
        exact congrArg (fun k => (diagIdx k).toInt) (funext fun b => match b with | ⟨0, _⟩ => rfl | ⟨1, _⟩ => rfl)
    exact e.trans ((congrArg BitVec.toInt (diagIdx_apply (j 0) c)).trans hk)
  have hs : ∀ a : Fin 2, scatter_S8192x8192_S8192x2_S8192_n_01_01_1.start j diagIdx a + scatter_S8192x8192_S8192x2_S8192_n_01_01_1.window j a = ((j 0).val : ℤ) := fun a => by
    rw [hstart a]
    match a with
    | ⟨0, _⟩ => show ((j 0).val : ℤ) + (0 : ℤ) = _; omega
    | ⟨1, _⟩ => show ((j 0).val : ℤ) + (0 : ℤ) = _; omega
  unfold ScatterDims.resultIdx?
  rw [dif_pos (fun a => by
    rw [hs a]
    have h : (j 0).val < 8192 := (j 0).isLt
    exact ⟨Int.natCast_nonneg _, match a with
      | ⟨0, _⟩ => by show ((j 0).val : ℤ) < ((8192 : ℕ) : ℤ); omega
      | ⟨1, _⟩ => by show ((j 0).val : ℤ) < ((8192 : ℕ) : ℤ); omega⟩)]
  refine congrArg some (funext fun a => Fin.ext ?_)
  show (scatter_S8192x8192_S8192x2_S8192_n_01_01_1.start j diagIdx a + scatter_S8192x8192_S8192x2_S8192_n_01_01_1.window j a).toNat = _
  rw [hs a, Int.toNat_natCast]
  match a with
  | ⟨0, _⟩ => rfl
  | ⟨1, _⟩ => rfl

/-- The second scatter's result, entry by entry: `half` on the diagonal, the zero word off it. -/
theorem diagScatter_apply (h : FVec Ideal S8192 .f32) (i C : Fin 8192) :
    Host.scatter scatter_S8192x8192_S8192x2_S8192_n_01_01_1 (fun _ b => b)
        (broadcastInDim S8192x8192 ![] bcast_S_S8192x8192 (constant (F := Ideal) S_ .f32 0x00000000#32)) diagIdx h (ix2 i C)
      = if i.val = C.val then h (ix1 C) else Spec.Z := by
  by_cases hic : i = C
  · subst hic
    rw [if_pos rfl]
    exact scatter_apply_of_unique _ _ _ _ _ _ (ix1 i) (resultIdx_diag (ix1 i)) fun j' hj' => by
      rw [resultIdx_diag j'] at hj'
      have e := congrFun (Option.some.inj hj') (0 : Fin 2)
      rw [eq_ix1 j']
      exact congrArg ix1 e
  · rw [if_neg (fun e => hic (Fin.ext e))]
    refine (scatter_apply_of_forall_ne _ _ _ _ _ _ fun j hj => ?_).trans ?_
    · rw [resultIdx_diag j] at hj
      have e0 := congrFun (Option.some.inj hj) (0 : Fin 2)
      have e1 := congrFun (Option.some.inj hj) (1 : Fin 2)
      exact hic (e0.symm.trans e1)
    · exact broadcastInDim_apply _ bcast_S_S8192x8192 _ (ix2 i C) (fun a => a.elim0) (fun a => a.elim0)

/-! ## The stack -/

/-- The reference's result is the specification's array. -/
theorem result_eq : result x0 x1 = Spec.G x0 x1 := by
  funext j
  obtain ⟨R, C, rfl⟩ : ∃ (R : Fin 9217) (C : Fin 8192), j = ix2 R C := ⟨j 0, j 1, eq_ix2 j⟩
  rw [Spec.G_ix2]
  unfold result stack
  by_cases h1 : R.val < 1025
  · refine (concatenate_pair_apply_left (t := S9217x8192) (s₁ := S1025x8192) (s₂ := S8192x8192) (0 : Fin 2) _ _
      concatenates_S1025x8192_S8192x8192_S9217x8192_d0 (ix2 R C) rfl
      (ix2 (⟨R.val, h1⟩ : Fin 1025) C) (fun b => match b with | ⟨0, _⟩ => rfl | ⟨1, _⟩ => rfl)).trans ?_
    by_cases h0 : R.val = 0
    · rw [Spec.entry_top x0 x1 R C h0]
      rw [show (⟨R.val, h1⟩ : Fin 1025) = (0 : Fin 1025) from Fin.ext h0, rowScatter_top, scaled_apply, half_apply]
    · rw [Spec.entry_body x0 x1 R C h0 h1, rowScatter_rest _ _ _ _ h0, scaled_apply]
  · have hR : R.val < 9217 := R.isLt
    rw [Spec.entry_diag x0 x1 R C (by omega)]
    refine (concatenate_pair_apply_right (t := S9217x8192) (s₁ := S1025x8192) (s₂ := S8192x8192) (0 : Fin 2) _ _
      concatenates_S1025x8192_S8192x8192_S9217x8192_d0 (ix2 R C) rfl rfl
      (ix2 (⟨R.val - 1025, by omega⟩ : Fin 8192) C) (fun b hb => match b, hb with
        | ⟨0, _⟩, hb => absurd rfl hb
        | ⟨1, _⟩, _ => rfl) (by show R.val - 1025 + 1025 = R.val; omega)).trans ?_
    rw [diagScatter_apply, half_apply]

end Cert.ReferenceIdeal.RefValue

end
-- ==== Proof.KernelPayload.lean ====
import proofs.«179633_j20899310863245_2_alg».proof.Proof.Gen.KernelIdeal.Skeleton
import proofs.«179633_j20899310863245_2_alg».proof.Proof.Spec
import proofs.«179633_j20899310863245_2_alg».proof.Proof.LibColumns
import proofs.«179633_j20899310863245_2_alg».proof.Proof.LibWords
import Idealize.ShloMosaic.Lib.Pipeline.Value
import Idealize.ShloMosaic.Lib.ValueIdx
import Idealize.ShloMosaic.PureOps.Ideal.Laws

/-!
# The body's values at a lane

The kernel's body works on a block of 128 features. At lane `l` every value it computes depends only on column `l`
of the block — `u : Fin 1025 → EReal`, the centre `u 0` and the error terms `u (1 + k)` — and on the lane's slope
`s`. Over the extended reals each intermediate is the specification's quantity of that column: the lane sum of the
absolute values is the radius, `0 - lo` is `-lo`, and a flag widened to 32 bits and read as a signed integer is the
number 0 or 1. The loads are abstract here: `v0` is the centre row, `v1` the error rows, `v5` the slopes, `v31` the
whole block, each tied to the column by a hypothesis.

The last payload is the diagonal piece: at row `r` and lane `l` of an 8192 × 128 piece it holds `half` where `r` is the
global feature number `128 · t + l` of the lane (`t` the grid point, all in 32-bit words that do not wrap) and the zero
word elsewhere.
-/

noncomputable section

namespace Cert.KernelIdeal.Payload

open Cert.KernelIdeal Cert.KernelIdeal.Gen Idealize.ShloMosaic Idealize.ShloMosaic.ValueIdx Idealize.ShloMosaic.Words

/-- On the extended reals the zero word minus `y` is `-y`. -/
theorem zero_word_sub (y : EReal) : Ideal.ofBits .f32 0x00000000#32 - y = -y := by
  rw [Ideal.ofBits_zero_f32, zero_sub]

variable (v0 : Vec Ideal S1x128 .f32) (v1 : Vec Ideal S1024x128 .f32) (v5 : Vec Ideal S1x128 .f32)
  (v31 : Vec Ideal S1025x128 .f32) (l : Fin 128) (u : Fin 1025 → EReal) (s : EReal)

/-- The lane sum of the error rows' absolute values is the radius. -/
theorem pay2_apply (h1 : ∀ k : Fin 1024, v1 (ix2 k l) = u (Spec.errRow k)) :
    k0_pay2 v1 (ix2 (0 : Fin 1) l) = Spec.Col.radius u := by
  unfold k0_pay2 Spec.Col.radius
  refine (shapeCast_apply _ shapeCasts_S128_S1x128 (ix2 (0 : Fin 1) l) (ix1 l) ?_).trans ?_
  · rw [Shape.rowMajor_val_one, Shape.rowMajor_val_two]; show l.val = 0 * 128 + l.val; omega
  refine (Cert.Lib.Columns.colSum_f32_apply (absf v1) reduces_S1024x128_S128 (.inl rfl) rfl l).trans ?_
  refine Finset.sum_congr rfl fun k _ => ?_
  show max (v1 (ix2 k l)) (-(v1 (ix2 k l))) = _
  rw [h1 k]

theorem pay3_apply (h0 : v0 (ix2 (0 : Fin 1) l) = u 0) (h1 : ∀ k : Fin 1024, v1 (ix2 k l) = u (Spec.errRow k)) :
    k0_pay3 v0 v1 (ix2 (0 : Fin 1) l) = Spec.Col.lo u := by
  show v0 (ix2 (0 : Fin 1) l) - k0_pay2 v1 (ix2 (0 : Fin 1) l) = _
  rw [h0, pay2_apply v1 l u h1]; rfl

theorem pay4_apply (h0 : v0 (ix2 (0 : Fin 1) l) = u 0) (h1 : ∀ k : Fin 1024, v1 (ix2 k l) = u (Spec.errRow k)) :
    k0_pay4 v0 v1 (ix2 (0 : Fin 1) l) = Spec.Col.hi u := by
  show v0 (ix2 (0 : Fin 1) l) + k0_pay2 v1 (ix2 (0 : Fin 1) l) = _
  rw [h0, pay2_apply v1 l u h1]; rfl

/-- The crossing flag. -/
theorem pay5_apply (h0 : v0 (ix2 (0 : Fin 1) l) = u 0) (h1 : ∀ k : Fin 1024, v1 (ix2 k l) = u (Spec.errRow k)) :
    k0_pay5 v0 v1 (ix2 (0 : Fin 1) l) = Spec.Col.cross u := by
  show FloatOps.sitofp (F := Ideal) .f32 ((IntOp.andi (Ideal.cmp .ogt (k0_pay4 v0 v1 (ix2 (0 : Fin 1) l)) Spec.Z)
      (Ideal.cmp .olt (k0_pay3 v0 v1 (ix2 (0 : Fin 1) l)) Spec.Z)).setWidth 32) = _
  rw [Cert.Lib.Columns.sitofp_setWidth_bit, pay4_apply v0 v1 l u h0 h1, pay3_apply v0 v1 l u h0 h1]; rfl

/-- The half offset. -/
theorem pay6_apply (h0 : v0 (ix2 (0 : Fin 1) l) = u 0) (h1 : ∀ k : Fin 1024, v1 (ix2 k l) = u (Spec.errRow k))
    (hs : v5 (ix2 (0 : Fin 1) l) = s) :
    k0_pay6 v0 v1 v5 (ix2 (0 : Fin 1) l) = Spec.Col.half u s := by
  show Ideal.ofBits .f32 0x3F000000#32 * k0_pay5 v0 v1 (ix2 (0 : Fin 1) l)
      * max ((Ideal.ofBits .f32 0x00000000#32 - k0_pay3 v0 v1 (ix2 (0 : Fin 1) l)) * v5 (ix2 (0 : Fin 1) l))
          (k0_pay4 v0 v1 (ix2 (0 : Fin 1) l) * (Ideal.ofBits .f32 0x3F800000#32 - v5 (ix2 (0 : Fin 1) l))) = _
  rw [zero_word_sub, pay5_apply v0 v1 l u h0 h1, pay3_apply v0 v1 l u h0 h1, pay4_apply v0 v1 l u h0 h1, hs]; rfl

/-- The scaled block. -/
theorem pay7_apply (h0 : v0 (ix2 (0 : Fin 1) l) = u 0) (h1 : ∀ k : Fin 1024, v1 (ix2 k l) = u (Spec.errRow k))
    (hs : v5 (ix2 (0 : Fin 1) l) = s) (hu : ∀ r : Fin 1025, v31 (ix2 r l) = u r) (r : Fin 1025) :
    k0_pay7 v0 v1 v5 v31 (ix2 r l) = Spec.Col.scale u s * u r := by
  unfold k0_pay7
  refine (congrArg (· * v31 (ix2 r l)) (broadcastTo_apply _ broadcasts_S1x128_S1025x128 (ix2 r l) (ix2 (0 : Fin 1) l)
    (fun a => match a with
      | ⟨0, _⟩ => by show 0 = if (1 : ℕ) = 1 then 0 else _; rw [if_pos rfl]
      | ⟨1, _⟩ => by show l.val = if (128 : ℕ) = 1 then 0 else l.val; rw [if_neg (by decide)]))).trans ?_
  show (FloatOps.sitofp (F := Ideal) .f32 ((Ideal.cmp .ogt (k0_pay3 v0 v1 (ix2 (0 : Fin 1) l)) Spec.Z).setWidth 32)
      + k0_pay5 v0 v1 (ix2 (0 : Fin 1) l) * v5 (ix2 (0 : Fin 1) l)) * v31 (ix2 r l) = _
  rw [Cert.Lib.Columns.sitofp_setWidth_bit, pay3_apply v0 v1 l u h0 h1, pay5_apply v0 v1 l u h0 h1, hs, hu r]; rfl

/-- Row 0 of the output block: the scaled centre plus the half offset. -/
theorem pay8_apply (h0 : v0 (ix2 (0 : Fin 1) l) = u 0) (h1 : ∀ k : Fin 1024, v1 (ix2 k l) = u (Spec.errRow k))
    (hs : v5 (ix2 (0 : Fin 1) l) = s) (hu : ∀ r : Fin 1025, v31 (ix2 r l) = u r) :
    k0_pay8 v0 v1 v5 v31 (ix2 (0 : Fin 1) l) = Spec.Col.scale u s * u 0 + Spec.Col.half u s := by
  unfold k0_pay8
  refine (congrArg (· + k0_pay6 v0 v1 v5 (ix2 (0 : Fin 1) l)) (extractStridedSlice_apply ![0, 0] _ slices_S1025x128_o0_0_S1x128
    (ix2 (0 : Fin 1) l) (ix2 (0 : Fin 1025) l) (fun a => match a with
      | ⟨0, _⟩ => rfl
      | ⟨1, _⟩ => by show l.val = 0 + l.val; omega))).trans ?_
  rw [pay7_apply v0 v1 v5 v31 l u s h0 h1 hs hu, pay6_apply v0 v1 v5 l u s h0 h1 hs]

/-- Rows 1 … 1024 of the output block: the scaled error rows. -/
theorem pay9_apply (h0 : v0 (ix2 (0 : Fin 1) l) = u 0) (h1 : ∀ k : Fin 1024, v1 (ix2 k l) = u (Spec.errRow k))
    (hs : v5 (ix2 (0 : Fin 1) l) = s) (hu : ∀ r : Fin 1025, v31 (ix2 r l) = u r) (k : Fin 1024) :
    k0_pay9 v0 v1 v5 v31 (ix2 k l) = Spec.Col.scale u s * u (Spec.errRow k) := by
  unfold k0_pay9
  refine (extractStridedSlice_apply ![1, 0] _ slices_S1025x128_o1_0_S1024x128 (ix2 k l) (ix2 (Spec.errRow k) l)
    (fun a => match a with
      | ⟨0, _⟩ => rfl
      | ⟨1, _⟩ => by show l.val = 0 + l.val; omega)).trans ?_
  exact pay7_apply v0 v1 v5 v31 l u s h0 h1 hs hu (Spec.errRow k)

/-- The diagonal piece at grid point `t`: `half` on the row numbered as the lane's global feature, zero elsewhere. -/
theorem pay1_apply (t : ℕ) (ht : t < 64) (v30 : FVec Ideal S1x128 .f32) (r : Fin 8192) :
    k0_pay1 (BitVec.ofNat 32 t) v30 (ix2 r l) = if r.val = t * 128 + l.val then v30 (ix2 (0 : Fin 1) l) else Spec.Z := by
  unfold k0_pay1
  have hrow : broadcastTo S8192x128 (iota .tc S8192x1 32 [0] iota_S8192x1_d0_w32) broadcasts_S8192x1_S8192x128 (ix2 r l)
      = BitVec.ofNat 32 r.val :=
    (broadcastTo_apply _ broadcasts_S8192x1_S8192x128 (ix2 r l) (ix2 r (0 : Fin 1)) (fun a => match a with
      | ⟨0, _⟩ => by show r.val = if (8192 : ℕ) = 1 then 0 else r.val; rw [if_neg (by decide)]
      | ⟨1, _⟩ => by show 0 = if (1 : ℕ) = 1 then 0 else _; rw [if_pos rfl])).trans
      (iota_single_apply .tc S8192x1 32 0 iota_S8192x1_d0_w32 (ix2 r (0 : Fin 1)))
  have hcol : broadcastTo S8192x128 (addi (broadcast S1x128 (Scalar.muli (BitVec.ofNat 32 t) 128#32))
        (iota .tc S1x128 32 [1] iota_S1x128_d1_w32)) broadcasts_S1x128_S8192x128 (ix2 r l)
      = BitVec.ofNat 32 (t * 128 + l.val) := by
    refine (broadcastTo_apply _ broadcasts_S1x128_S8192x128 (ix2 r l) (ix2 (0 : Fin 1) l) (fun a => match a with
      | ⟨0, _⟩ => by show 0 = if (1 : ℕ) = 1 then 0 else _; rw [if_pos rfl]
      | ⟨1, _⟩ => by show l.val = if (128 : ℕ) = 1 then 0 else l.val; rw [if_neg (by decide)])).trans ?_
    show BitVec.ofNat 32 t * BitVec.ofNat 32 128 + iota .tc S1x128 32 [1] iota_S1x128_d1_w32 (ix2 (0 : Fin 1) l) = _
    rw [iota_single_apply .tc S1x128 32 1 iota_S1x128_d1_w32 (ix2 (0 : Fin 1) l), BitVec.ofNat_mul_ofNat]
    exact BitVec.ofNat_add_ofNat _ _
  have hval : broadcastTo S8192x128 (shapeCast S1x128 v30 shapeCasts_S1x128_S1x128) broadcasts_S1x128_S8192x128 (ix2 r l)
      = v30 (ix2 (0 : Fin 1) l) := by
    rw [shapeCast_self]
    exact broadcastTo_apply _ broadcasts_S1x128_S8192x128 (ix2 r l) (ix2 (0 : Fin 1) l) (fun a => match a with
      | ⟨0, _⟩ => by show 0 = if (1 : ℕ) = 1 then 0 else _; rw [if_pos rfl]
      | ⟨1, _⟩ => by show l.val = if (128 : ℕ) = 1 then 0 else l.val; rw [if_neg (by decide)])
  show Scalar.select (IntOp.cmpi .eq
      (broadcastTo S8192x128 (iota .tc S8192x1 32 [0] iota_S8192x1_d0_w32) broadcasts_S8192x1_S8192x128 (ix2 r l))
      (broadcastTo S8192x128 (addi (broadcast S1x128 (Scalar.muli (BitVec.ofNat 32 t) 128#32))
        (iota .tc S1x128 32 [1] iota_S1x128_d1_w32)) broadcasts_S1x128_S8192x128 (ix2 r l)))
      (broadcastTo S8192x128 (shapeCast S1x128 v30 shapeCasts_S1x128_S1x128) broadcasts_S1x128_S8192x128 (ix2 r l))
      (Ideal.ofBits .f32 0x00000000#32) = _
  rw [hrow, hcol, hval, cmpi_eq_ofNat (by have := r.isLt; omega) (by have := l.isLt; omega)]
  by_cases h : r.val = t * 128 + l.val
  · rw [if_pos h, if_pos h, select_one]
  · rw [if_neg h, if_neg h, select_zero]

end Cert.KernelIdeal.Payload

end
-- ==== Proof.KernelBlock.lean ====
import proofs.«179633_j20899310863245_2_alg».proof.Proof.KernelIdealFrameP
import proofs.«179633_j20899310863245_2_alg».proof.Proof.KernelPayload
import Idealize.ShloMosaic.Lib.Pipeline.Value
import Idealize.ShloMosaic.Lib.Tactic

/-!
# What the body leaves in the output block

At a grid point the body fills the 9217 × 128 output block with three stores: row 0, rows 1 … 1024 and rows
1025 … 9216. Each store's payload, read at a local entry, is the specification's column entry at the block row the
store's rectangle places it on, for the block's column `l` and the lane's slope. Pieces that all restrict one function
of the block index read back as that function, so the block is the specification's entries of its own 128 columns —
with the diagonal row of lane `l` at the lane's global feature number `128·t + l`.
-/

noncomputable section

namespace Cert.KernelIdeal.Block

open Cert.KernelIdeal Cert.KernelIdeal.Gen Cert.KernelIdeal.GenP Idealize.ShloMosaic Idealize.ShloMosaic.TcCoe Idealize.SL.Sem
open Idealize.ShloMosaic.ValueIdx Idealize.ShloMosaic.Tactic Cert.KernelIdeal.Payload

/-- Entry `(r, l)` of the output block at grid point `t`, from the two input blocks. -/
def blockEntry (t : ℕ) (X0 : Vec Ideal S1025x128 .f32) (X1 : Vec Ideal S1x128 .f32) (r : Fin 9217) (l : Fin 128) : EReal :=
  Spec.Col.entry (fun q : Fin 1025 => X0 (ix2 q l)) (X1 (ix2 (0 : Fin 1) l)) r (r.val - 1025 = t * 128 + l.val)

/-- The column entry depends only on the column, the slope and whether the row is the diagonal one. -/
theorem entry_congr (u u' : Fin 1025 → EReal) (s s' : EReal) (R : Fin 9217) (p p' : Prop) [Decidable p] [Decidable p']
    (hu : u = u') (hs : s = s') (hp : p ↔ p') : Spec.Col.entry u s R p = Spec.Col.entry u' s' R p' := by
  subst hu hs
  unfold Spec.Col.entry
  by_cases h : p
  · rw [if_pos h, if_pos (hp.mp h)]
  · rw [if_neg h, if_neg (fun h' => h (hp.mpr h'))]

/-- Where a unit-stride rectangle of a two-axis shape puts its local entry `(a, b)`. -/
theorem emb_unit_ix2 {N0 N1 m0 m1 : ℕ} (o0 o1 : ℕ)
    (inb : ∀ d, (![o0, o1] : Fin 2 → ℕ) d + (![m0, m1] : Fin 2 → ℕ) d ≤ (⟨2, ![N0, N1]⟩ : Shape).size d)
    (a : Fin m0) (b : Fin m1) (a' : Fin N0) (b' : Fin N1) (ha : a'.val = o0 + a.val) (hb : b'.val = o1 + b.val) :
    (Rect.unit (s := ⟨2, ![N0, N1]⟩) ![o0, o1] ![m0, m1] inb).emb (ix2 a b) = ix2 a' b' := by
  funext d; apply Fin.ext
  match d with
  | ⟨0, _⟩ => show o0 + 1 * a.val = a'.val; omega
  | ⟨1, _⟩ => show o1 + 1 * b.val = b'.val; omega

variable (T : ℕ) (X0 : Vec Ideal S1025x128 .f32) (X1 : Vec Ideal S1x128 .f32)
  (inbA : ∀ d, (![0, 0] : Fin 2 → ℕ) d + (![1, 128] : Fin 2 → ℕ) d ≤ S1025x128.size d)
  (inbB : ∀ d, (![1, 0] : Fin 2 → ℕ) d + (![1024, 128] : Fin 2 → ℕ) d ≤ S1025x128.size d)
  (inbC : ∀ d, (![0, 0] : Fin 2 → ℕ) d + (![1, 128] : Fin 2 → ℕ) d ≤ S1x128.size d)
  (inbD : ∀ d, (![0, 0] : Fin 2 → ℕ) d + (![1025, 128] : Fin 2 → ℕ) d ≤ S1025x128.size d)

/-- The four loads of the body, read at lane `b`, are the block's column `b` and the lane's slope. -/
theorem load_centre (b : Fin 128) :
    View.ld X0 (Rect.unit (s := S1025x128) ![0, 0] ![1, 128] inbA) (ix2 (0 : Fin 1) b) = X0 (ix2 (0 : Fin 1025) b) :=
  congrArg X0 (emb_unit_ix2 0 0 inbA (0 : Fin 1) b (0 : Fin 1025) b rfl (by omega))

theorem load_err (k : Fin 1024) (b : Fin 128) :
    View.ld X0 (Rect.unit (s := S1025x128) ![1, 0] ![1024, 128] inbB) (ix2 k b) = X0 (ix2 (Spec.errRow k) b) :=
  congrArg X0 (emb_unit_ix2 1 0 inbB k b (Spec.errRow k) b rfl (by omega))

theorem load_slope (b : Fin 128) :
    View.ld X1 (Rect.unit (s := S1x128) ![0, 0] ![1, 128] inbC) (ix2 (0 : Fin 1) b) = X1 (ix2 (0 : Fin 1) b) :=
  congrArg X1 (emb_unit_ix2 0 0 inbC (0 : Fin 1) b (0 : Fin 1) b rfl (by omega))

theorem load_all (q : Fin 1025) (b : Fin 128) :
    View.ld X0 (Rect.unit (s := S1025x128) ![0, 0] ![1025, 128] inbD) (ix2 q b) = X0 (ix2 q b) :=
  congrArg X0 (emb_unit_ix2 0 0 inbD q b q b (by omega) (by omega))

/-- Row 0's store: the scaled centre plus the half offset. -/
theorem piece_top (inbE : ∀ d, (![0, 0] : Fin 2 → ℕ) d + (![1, 128] : Fin 2 → ℕ) d ≤ S9217x128.size d)
    (x : (⟨2, ![1, 128]⟩ : Shape).Idx) :
    k0_pay8 (View.ld X0 (Rect.unit (s := S1025x128) ![0, 0] ![1, 128] inbA))
        (View.ld X0 (Rect.unit (s := S1025x128) ![1, 0] ![1024, 128] inbB))
        (View.ld X1 (Rect.unit (s := S1x128) ![0, 0] ![1, 128] inbC))
        (View.ld X0 (Rect.unit (s := S1025x128) ![0, 0] ![1025, 128] inbD)) x
      = blockEntry T X0 X1 ((Rect.unit (s := S9217x128) ![0, 0] ![1, 128] inbE).emb x 0)
          ((Rect.unit (s := S9217x128) ![0, 0] ![1, 128] inbE).emb x 1) := by
  obtain ⟨a, b, rfl⟩ : ∃ (a : Fin 1) (b : Fin 128), x = ix2 a b := ⟨x 0, x 1, eq_ix2 x⟩
  obtain rfl : a = 0 := Subsingleton.elim _ _
  rw [emb_unit_ix2 0 0 inbE (0 : Fin 1) b (0 : Fin 9217) b rfl (by omega)]
  refine (pay8_apply _ _ _ _ b (fun q => X0 (ix2 q b)) (X1 (ix2 (0 : Fin 1) b)) (load_centre X0 inbA b)
    (fun k => load_err X0 inbB k b) (load_slope X1 inbC b) (fun q => load_all X0 inbD q b)).trans ?_
  show _ = blockEntry T X0 X1 (0 : Fin 9217) b
  unfold blockEntry Spec.Col.entry
  exact (if_pos (rfl : (0 : Fin 9217).val = 0)).symm

/-- Rows 1 … 1024's store: the scaled error rows. -/
theorem piece_rows (inbE : ∀ d, (![1, 0] : Fin 2 → ℕ) d + (![1024, 128] : Fin 2 → ℕ) d ≤ S9217x128.size d)
    (x : (⟨2, ![1024, 128]⟩ : Shape).Idx) :
    k0_pay9 (View.ld X0 (Rect.unit (s := S1025x128) ![0, 0] ![1, 128] inbA))
        (View.ld X0 (Rect.unit (s := S1025x128) ![1, 0] ![1024, 128] inbB))
        (View.ld X1 (Rect.unit (s := S1x128) ![0, 0] ![1, 128] inbC))
        (View.ld X0 (Rect.unit (s := S1025x128) ![0, 0] ![1025, 128] inbD)) x
      = blockEntry T X0 X1 ((Rect.unit (s := S9217x128) ![1, 0] ![1024, 128] inbE).emb x 0)
          ((Rect.unit (s := S9217x128) ![1, 0] ![1024, 128] inbE).emb x 1) := by
  obtain ⟨a, b, rfl⟩ : ∃ (a : Fin 1024) (b : Fin 128), x = ix2 a b := ⟨x 0, x 1, eq_ix2 x⟩
  have ha : a.val < 1024 := a.isLt
  have hR : 1 + a.val < 9217 := by omega
  rw [emb_unit_ix2 1 0 inbE a b (⟨1 + a.val, hR⟩ : Fin 9217) b rfl (by omega)]
  refine (pay9_apply _ _ _ _ b (fun q => X0 (ix2 q b)) (X1 (ix2 (0 : Fin 1) b)) (load_centre X0 inbA b)
    (fun k => load_err X0 inbB k b) (load_slope X1 inbC b) (fun q => load_all X0 inbD q b) a).trans ?_
  show _ = blockEntry T X0 X1 (⟨1 + a.val, hR⟩ : Fin 9217) b
  unfold blockEntry Spec.Col.entry
  have h0 : ¬ ((⟨1 + a.val, hR⟩ : Fin 9217).val = 0) := by show ¬ (1 + a.val = 0); omega
  have h1 : (⟨1 + a.val, hR⟩ : Fin 9217).val < 1025 := by show 1 + a.val < 1025; omega
  rw [if_neg h0, dif_pos h1]

/-- Rows 1025 … 9216's store: the half offset on the lane's diagonal row, the zero word elsewhere. -/
theorem piece_diag (hT : T < 64) (inbE : ∀ d, (![1025, 0] : Fin 2 → ℕ) d + (![8192, 128] : Fin 2 → ℕ) d ≤ S9217x128.size d)
    (x : (⟨2, ![8192, 128]⟩ : Shape).Idx) :
    k0_pay1 (BitVec.ofNat 32 T) (k0_pay6 (View.ld X0 (Rect.unit (s := S1025x128) ![0, 0] ![1, 128] inbA))
        (View.ld X0 (Rect.unit (s := S1025x128) ![1, 0] ![1024, 128] inbB))
        (View.ld X1 (Rect.unit (s := S1x128) ![0, 0] ![1, 128] inbC))) x
      = blockEntry T X0 X1 ((Rect.unit (s := S9217x128) ![1025, 0] ![8192, 128] inbE).emb x 0)
          ((Rect.unit (s := S9217x128) ![1025, 0] ![8192, 128] inbE).emb x 1) := by
  obtain ⟨a, b, rfl⟩ : ∃ (a : Fin 8192) (b : Fin 128), x = ix2 a b := ⟨x 0, x 1, eq_ix2 x⟩
  have ha : a.val < 8192 := a.isLt
  have hR : 1025 + a.val < 9217 := by omega
  rw [emb_unit_ix2 1025 0 inbE a b (⟨1025 + a.val, hR⟩ : Fin 9217) b rfl (by omega)]
  refine (pay1_apply b T hT _ a).trans ?_
  rw [pay6_apply _ _ _ b (fun q => X0 (ix2 q b)) (X1 (ix2 (0 : Fin 1) b)) (load_centre X0 inbA b)
    (fun k => load_err X0 inbB k b) (load_slope X1 inbC b)]
  show _ = blockEntry T X0 X1 (⟨1025 + a.val, hR⟩ : Fin 9217) b
  unfold blockEntry Spec.Col.entry
  have h0 : ¬ ((⟨1025 + a.val, hR⟩ : Fin 9217).val = 0) := by show ¬ (1025 + a.val = 0); omega
  have h1 : ¬ ((⟨1025 + a.val, hR⟩ : Fin 9217).val < 1025) := by show ¬ (1025 + a.val < 1025); omega
  rw [if_neg h0, dif_neg h1]
  exact if_congr (by show a.val = T * 128 + b.val ↔ 1025 + a.val - 1025 = T * 128 + b.val; omega) rfl rfl

/-- The output block the body leaves, entry by entry. -/
theorem out_A (c : Dev nD) (i : grid0.Coords) (a1 : Memref sig .tc .vmem S1025x128 .f32) (h1 : a1.IsWhole)
    (a2 : Memref sig .tc .vmem S1x128 .f32) (h2 : a2.IsWhole) (a3 : Memref sig .tc .vmem S9217x128 .f32) (h3 : a3.IsWhole)
    (X0 : Vec Ideal S1025x128 .f32) (X1 : Vec Ideal S1x128 .f32) (r : Fin 9217) (l : Fin 128) :
    out0_A_2 c i a1 h1 a2 h2 a3 h3 X0 X1 (ix2 r l) = blockEntry (i 0).val X0 X1 r l := by
  have hT : (i 0).val < 64 := (i 0).isLt
  unfold out0_A_2
  rw [View.read_writes_eq_canon _ _ _ (cover0_A_2 c i a1 h1 a2 h2 a3 h3 X0 X1)]
  refine View.canon_apply_of_pieces (fun y => blockEntry (i 0).val X0 X1 (y 0) (y 1)) _ ?_ (ix2 r l)
    (cover0_A_2 c i a1 h1 a2 h2 a3 h3 X0 X1 (ix2 r l))
  unfold kernelRun0_A
  dsimp only
  sl_unfold_words
  simp only [View.readAt_eq_ld, h1.read_unread, h2.read_unread]
  intro p hp x
  simp only [List.mem_cons, List.not_mem_nil, or_false] at hp
  rcases hp with rfl | rfl | rfl
  · exact piece_diag (i 0).val X0 X1 inb_S1025x128_S1x128_0_0 inb_S1025x128_S1024x128_1_0 inb_S1x128_S1x128_0_0 hT
      inb_S9217x128_S8192x128_1025_0 x
  · exact piece_rows (i 0).val X0 X1 inb_S1025x128_S1x128_0_0 inb_S1025x128_S1024x128_1_0 inb_S1x128_S1x128_0_0
      inb_S1025x128_S1025x128_0_0 inb_S9217x128_S1024x128_1_0 x
  · exact piece_top (i 0).val X0 X1 inb_S1025x128_S1x128_0_0 inb_S1025x128_S1024x128_1_0 inb_S1x128_S1x128_0_0
      inb_S1025x128_S1025x128_0_0 inb_S9217x128_S1x128_0_0 x

end Cert.KernelIdeal.Block

end
-- ==== Proof.KernelValue.lean ====
import proofs.«179633_j20899310863245_2_alg».proof.Proof.KernelBlock
import Idealize.ShloMosaic.Lib.Pipeline.Value

/-!
# The kernel's result array is the specification

Grid point `t` works on features `128·t … 128·t + 127`: its three windows are block `(0, t)` of the two arguments and
of the result, each window the full height of its array. What the point writes back is the output block computed from
the two input blocks; a block's column `l` is the array's column `128·t + l`, so the block is the specification's array
read through the result window. The 64 blocks cover the result array (feature `C` belongs to point `C / 128`), so the
array after the run is the specification's array of the two arguments.
-/

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided over the 64 grid points: every window is at block `(0, t)`, and the point's grid
    coordinate is `t`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ (grid0.coords t 0).val = t.val :=
  (by decide +kernel : ∀ t : Fin grid0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ (grid0.coords t 0).val = t.val)

/-- The specification's array of the two arguments as the region finds them. -/
abbrev spec (c : Dev nD) : S9217x8192.Idx → EReal := Spec.G (V m c main_arg0) (V m c main_arg1)

/-- What point `t` writes back is the specification's array read through the result window's block. -/
theorem flushed_eq (c : Dev nD) (t : Fin cfg0.N) :
    (dats m 0 c).flushed 2 t = ((cfg0.win 2).blk t).view.read (Elt Ideal) (spec m c) := by
  show (cfg0.win 2).cut (grid0.coords t) ((dats m 0 c).after 2 t) = _
  rw [after0_2]
  unfold outsAt0
  obtain ⟨e00, e01, e10, e11, e20, e21, eg⟩ := idx_facts t
  have hN : cfg0.N = 64 := N_0
  have htN : t.val < 64 := by have := t.isLt; omega
  funext y
  obtain ⟨r, l, rfl⟩ : ∃ (r : Fin 9217) (l : Fin 128), y = ix2 r l := ⟨y 0, y 1, eq_ix2 y⟩
  have hl : l.val < 128 := l.isLt
  have hC : t.val * 128 + l.val < 8192 := by omega
  show out0_A_2 c (grid0.coords t) (ms0_0 t) (hs0_0 t) (ms0_1 t) (hs0_1 t) (ms0_2 t) (hs0_2 t) (iblk m c 0 t) (iblk m c 1 t) (ix2 r l)
      = spec m c (((cfg0.win 2).blk t).view.emb (ix2 r l))
  have hemb : ((cfg0.win 2).blk t).view.emb (ix2 r l) = ix2 r (⟨t.val * 128 + l.val, hC⟩ : Fin 8192) := by
    funext a; apply Fin.ext
    match a with
    | ⟨0, _⟩ => show win0_2.index t (0 : Fin 2) * 9217 + 1 * r.val = r.val; rw [e20]; omega
    | ⟨1, _⟩ => show win0_2.index t (1 : Fin 2) * 128 + 1 * l.val = t.val * 128 + l.val; rw [e21]; omega
  refine (Cert.KernelIdeal.Block.out_A c (grid0.coords t) (ms0_0 t) (hs0_0 t) (ms0_1 t) (hs0_1 t) (ms0_2 t) (hs0_2 t)
    (iblk m c 0 t) (iblk m c 1 t) r l).trans ?_
  rw [hemb]
  show _ = Spec.entry (V m c main_arg0) (V m c main_arg1) r (⟨t.val * 128 + l.val, hC⟩ : Fin 8192)
  unfold Spec.entry Cert.KernelIdeal.Block.blockEntry
  refine Cert.KernelIdeal.Block.entry_congr _ _ _ _ _ _ _ (funext fun q => ?_) ?_ ?_
  · show V m c main_arg0 (((cfg0.win 0).blk t).view.emb (ix2 q l)) = V m c main_arg0 (ix2 q (⟨t.val * 128 + l.val, hC⟩ : Fin 8192))
    refine congrArg (V m c main_arg0) (funext fun a => Fin.ext ?_)
    match a with
    | ⟨0, _⟩ => show win0_0.index t (0 : Fin 2) * 1025 + 1 * q.val = q.val; rw [e00]; omega
    | ⟨1, _⟩ => show win0_0.index t (1 : Fin 2) * 128 + 1 * l.val = t.val * 128 + l.val; rw [e01]; omega
  · show V m c main_arg1 (((cfg0.win 1).blk t).view.emb (ix2 (0 : Fin 1) l)) = V m c main_arg1 (ix2 (0 : Fin 1) (⟨t.val * 128 + l.val, hC⟩ : Fin 8192))
    refine congrArg (V m c main_arg1) (funext fun a => Fin.ext ?_)
    match a with
    | ⟨0, _⟩ => show win0_1.index t (0 : Fin 2) * 1 + 1 * 0 = 0; rw [e10]
    | ⟨1, _⟩ => show win0_1.index t (1 : Fin 2) * 128 + 1 * l.val = t.val * 128 + l.val; rw [e11]; omega
  · show r.val - 1025 = (grid0.coords t 0).val * 128 + l.val ↔ r.val - 1025 = t.val * 128 + l.val
    rw [eg]

/-- An index of the result array is in point `t`'s block iff each coordinate is in the block's range on its axis. -/
theorem mem_blk (t : Fin cfg0.N) (i : S9217x8192.Idx) :
    i ∈ ((cfg0.win 2).blk t).view.set ↔ ∀ a : Fin 2, win0_2.index t a * S9217x128.size a ≤ (i a).val
      ∧ (i a).val < win0_2.index t a * S9217x128.size a + S9217x128.size a := by
  show i ∈ ((View.whole main_v0).slice (win0_2.rect t)).set ↔ _
  rw [View.set_slice_whole, Rect.mem_set_unit]
  exact Iff.rfl

/-- Every index of the result array is in the block of the point its feature belongs to. -/
theorem cover (i : S9217x8192.Idx) :
    ∃ t : Fin cfg0.N, (cfg0.win 2).flush t = true ∧ i ∈ ((cfg0.win 2).blk t).view.set := by
  have hN : cfg0.N = 64 := N_0
  have h0 : (i 0).val < 9217 := (i 0).isLt
  have h1 : (i 1).val < 8192 := (i 1).isLt
  have ht : (i 1).val / 128 < cfg0.N := by omega
  obtain ⟨-, -, -, -, e20, e21, -⟩ := idx_facts ⟨(i 1).val / 128, ht⟩
  refine ⟨⟨(i 1).val / 128, ht⟩, flush0_2 _, ?_⟩
  rw [mem_blk]
  intro a
  match a with
  | ⟨0, _⟩ =>
    show win0_2.index ⟨(i 1).val / 128, ht⟩ (0 : Fin 2) * 9217 ≤ (i 0).val
      ∧ (i 0).val < win0_2.index ⟨(i 1).val / 128, ht⟩ (0 : Fin 2) * 9217 + 9217
    rw [e20]; omega
  | ⟨1, _⟩ =>
    show win0_2.index ⟨(i 1).val / 128, ht⟩ (1 : Fin 2) * 128 ≤ (i 1).val
      ∧ (i 1).val < win0_2.index ⟨(i 1).val / 128, ht⟩ (1 : Fin 2) * 128 + 128
    rw [e21]; show (i 1).val / 128 * 128 ≤ (i 1).val ∧ (i 1).val < (i 1).val / 128 * 128 + 128; omega

/-- The result array after the run is the specification's array. -/
theorem final (c : Dev nD) : (dats m 0 c).arrAt 2 cfg0.N = spec m c :=
  (dats m 0 c).arrAt_eq_of_cover 2 (spec m c) (fun t _ => flushed_eq m c t) (cover)

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
          = Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/- The proof of `Cert.Claim`: the three frames, the (empty) idealization ledger, and the equality of the idealized
   kernel and the idealized reference over the extended reals.

   Both programs compute, feature by feature, the bounds `lo = x₀ - Σ|xₖ|` and `hi = x₀ + Σ|xₖ|` of a zonotope, the flags
   `[lo > 0]` and `[hi > 0 ∧ lo < 0]`, the per-feature factor `scale` and the half offset `half`; the result stacks the
   scaled array (row 0 shifted by `half`) on a square holding `half` on its diagonal. The kernel does it block by block
   of 128 features, writing the diagonal by comparing a row counter with the lane's global feature number; the
   reference does it on whole arrays with two scatters. Proof/Spec.lean states the common result entry by entry;
   Proof/KernelValue.lean shows the kernel's result array is it, Proof/RefValue.lean that the reference's is. No law
   beyond `0 + a = a` and `0 - a = -a` joins the two sides, so the finiteness of the inputs is never used. -/
import proofs.«179633_j20899310863245_2_alg».proof.Defs
import proofs.«179633_j20899310863245_2_alg».proof.Proof.Gen.Kernel
import proofs.«179633_j20899310863245_2_alg».proof.Proof.Gen.Kernel.Skeleton
import proofs.«179633_j20899310863245_2_alg».proof.Proof.Gen.Kernel.Launch
import proofs.«179633_j20899310863245_2_alg».proof.Proof.Gen.Kernel.Points
import proofs.«179633_j20899310863245_2_alg».proof.Proof.KernelFrameP
import proofs.«179633_j20899310863245_2_alg».proof.Proof.Gen.KernelIdeal
import proofs.«179633_j20899310863245_2_alg».proof.Proof.Gen.KernelIdeal.Skeleton
import proofs.«179633_j20899310863245_2_alg».proof.Proof.Gen.KernelIdeal.Launch
import proofs.«179633_j20899310863245_2_alg».proof.Proof.Gen.KernelIdeal.Points
import proofs.«179633_j20899310863245_2_alg».proof.Proof.KernelIdealFrameP
import proofs.«179633_j20899310863245_2_alg».proof.Proof.Gen.ReferenceIdeal
import proofs.«179633_j20899310863245_2_alg».proof.Proof.Gen.Pre_finite_inputs
import proofs.«179633_j20899310863245_2_alg».proof.Proof.RefRun
import proofs.«179633_j20899310863245_2_alg».proof.Proof.RefValue
import proofs.«179633_j20899310863245_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Over the extended reals both programs end with the specification's array of their (agreeing) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
